-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x512x128 : Shape := ⟨3, ![4, 512, 128]⟩
abbrev S128x256 : Shape := ⟨2, ![128, 256]⟩
abbrev S128 : Shape := ⟨1, ![128]⟩
abbrev S3x128 : Shape := ⟨2, ![3, 128]⟩
abbrev S3 : Shape := ⟨1, ![3]⟩
abbrev S_ : Shape := ⟨0, ![]⟩

class Facts : Prop where
  bcast_S_S4x512x128 : S_.BroadcastsInDim S4x512x128 (![] : Fin 0 → Fin S4x512x128.rank)
  reducesTo_S4x512x128_S_d0_1_2 : S4x512x128.ReducesTo [0, 1, 2] S_
  h_S_ : 0 < S_.numel
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S3x128 : S_.BroadcastsInDim S3x128 (![] : Fin 0 → Fin S3x128.rank)
  reducesTo_S3x128_S_d0_1 : S3x128.ReducesTo [0, 1] S_
  bcast_S_S3 : S_.BroadcastsInDim S3 (![] : Fin 0 → Fin S3.rank)
  reducesTo_S3_S_d0 : S3.ReducesTo [0] S_

variable [Facts]

def fn_part1 {F : FTy → Type} [FloatOps F] (main_arg4 : FVec F S3 .f32) (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  let main_v19 : FVec F S3 .f32 := Host.absf main_arg4
  let main_cst_6 : FVec F S_ .f32 := constant S_ .f32 0x7F800000#32
  let main_v20 : FVec F S3 .f32 := broadcastInDim S3 ![] bcast_S_S3 main_cst_6
  let main_v21 : IVec S3 1 := cmpf .olt main_v19 main_v20
  let main_c_7 : IVec S_ 1 := constantI S_ 1 1#1
  let main_v22 : IVec S_ 1 := (fun x v => Host.reduce IntOp.andi x v reducesTo_S3_S_d0 h_S_) main_v21 main_c_7
  let main_v23 : IVec S_ 1 := andi main_v18 main_v22
  main_v23

def fn {F : FTy → Type} [FloatOps F] (main_arg0 : FVec F S4x512x128 .f32) (main_arg1 : FVec F S128x256 .f32) (main_arg2 : FVec F S128 .f32) (main_arg3 : FVec F S3x128 .f32) (main_arg4 : FVec F S3 .f32) : IVec S_ 1 :=
  let main_v0 : FVec F S4x512x128 .f32 := Host.absf main_arg0
  let main_cst : FVec F S_ .f32 := constant S_ .f32 0x7F800000#32
  let main_v1 : FVec F S4x512x128 .f32 := broadcastInDim S4x512x128 ![] bcast_S_S4x512x128 main_cst
  let main_v2 : IVec S4x512x128 1 := cmpf .olt main_v0 main_v1
  let main_c : IVec S_ 1 := constantI S_ 1 1#1
  let main_v3 : IVec S_ 1 := (fun x v => Host.reduce IntOp.andi x v reducesTo_S4x512x128_S_d0_1_2 h_S_) main_v2 main_c
  let main_v4 : FVec F S128x256 .f32 := Host.absf main_arg1
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S3x128 .f32 := Host.absf main_arg3
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_arg4 main_v13 main_v16
-- ==== Kernel.lean ====
abbrev S4x512x128 : Shape := ⟨3, ![4, 512, 128]⟩
abbrev S128x256 : Shape := ⟨2, ![128, 256]⟩
abbrev S128 : Shape := ⟨1, ![128]⟩
abbrev S3x128 : Shape := ⟨2, ![3, 128]⟩
abbrev S3 : Shape := ⟨1, ![3]⟩
abbrev S4x512x512x3 : Shape := ⟨4, ![4, 512, 512, 3]⟩
abbrev S1x128x128 : Shape := ⟨3, ![1, 128, 128]⟩
abbrev S1x64x128 : Shape := ⟨3, ![1, 64, 128]⟩
abbrev S1x128x64x3 : Shape := ⟨4, ![1, 128, 64, 3]⟩
abbrev S128x128 : Shape := ⟨2, ![128, 128]⟩
abbrev S64x128 : Shape := ⟨2, ![64, 128]⟩
abbrev S128x1x128 : Shape := ⟨3, ![128, 1, 128]⟩
abbrev S128x64x128 : Shape := ⟨3, ![128, 64, 128]⟩
abbrev S1x1x128 : Shape := ⟨3, ![1, 1, 128]⟩
abbrev S8192x128 : Shape := ⟨2, ![8192, 128]⟩
abbrev S128x3 : Shape := ⟨2, ![128, 3]⟩
abbrev S8192x3 : Shape := ⟨2, ![8192, 3]⟩
abbrev S1x3 : Shape := ⟨2, ![1, 3]⟩
abbrev S128x64x3 : Shape := ⟨3, ![128, 64, 3]⟩

abbrev nBuf : Space → Nat
  | .hbm => 6
  | .vmem => 10
  | .smem => 0
  | _ => 0

abbrev bufTy : (tb : Table) → Fin (tcTables nBuf tb) → BufTy
  | .hbm, ⟨0, _⟩ => ⟨S4x512x128, .f32⟩
  | .hbm, ⟨1, _⟩ => ⟨S128x256, .f32⟩
  | .hbm, ⟨2, _⟩ => ⟨S128, .f32⟩
  | .hbm, ⟨3, _⟩ => ⟨S3x128, .f32⟩
  | .hbm, ⟨4, _⟩ => ⟨S3, .f32⟩
  | .hbm, ⟨5, _⟩ => ⟨S4x512x512x3, .f32⟩
  | .local _ .vmem, ⟨0, _⟩ => ⟨S1x128x128, .f32⟩
  | .local _ .vmem, ⟨1, _⟩ => ⟨S1x128x128, .f32⟩
  | .local _ .vmem, ⟨2, _⟩ => ⟨S1x64x128, .f32⟩
  | .local _ .vmem, ⟨3, _⟩ => ⟨S1x64x128, .f32⟩
  | .local _ .vmem, ⟨4, _⟩ => ⟨S128x256, .f32⟩
  | .local _ .vmem, ⟨5, _⟩ => ⟨S128, .f32⟩
  | .local _ .vmem, ⟨6, _⟩ => ⟨S3x128, .f32⟩
  | .local _ .vmem, ⟨7, _⟩ => ⟨S3, .f32⟩
  | .local _ .vmem, ⟨8, _⟩ => ⟨S1x128x64x3, .f32⟩
  | .local _ .vmem, ⟨9, _⟩ => ⟨S1x128x64x3, .f32⟩
  | _, _ => ⟨S4x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨3, ![4, 4, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S3x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S3 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x128x64x3 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

class Facts₀ : Prop where
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  bitsLt_bf16_f32 : FTy.bits .bf16 < FTy.bits .f32
  inb_S1x64x128_S1x64x128_0_0_0 : ∀ a, (![0, 0, 0] : Fin 3 → Nat) a + S1x64x128.size a ≤ S1x64x128.size a
  h_S1x64x128 : 0 < S1x64x128.numel
  shapeCasts_S1x64x128_S64x128 : S1x64x128.ShapeCasts S64x128
  inb_S128x256_S128x256_0_0 : ∀ a, (![0, 0] : Fin 2 → Nat) a + S128x256.size a ≤ S128x256.size a
  h_S128x256 : 0 < S128x256.numel
  slices_S128x256_o0_0_S128x128 : S128x256.Slices ![0, 0] S128x128
  slices_S128x256_o0_128_S128x128 : S128x256.Slices ![0, 128] S128x128
  inb_S128_S128_0 : ∀ a, (![0] : Fin 1 → Nat) a + S128.size a ≤ S128.size a
  h_S128 : 0 < S128.numel
  inb_S3x128_S3x128_0_0 : ∀ a, (![0, 0] : Fin 2 → Nat) a + S3x128.size a ≤ S3x128.size a
  h_S3x128 : 0 < S3x128.numel
  inb_S3_S3_0 : ∀ a, (![0] : Fin 1 → Nat) a + S3.size a ≤ S3.size a
  h_S3 : 0 < S3.numel
  transposes_S128x128_p1_0_S128x128 : S128x128.Transposes [1, 0] S128x128
  shapeCasts_S128x128_S128x1x128 : S128x128.ShapeCasts S128x1x128
  shapeCasts_S64x128_S1x64x128 : S64x128.ShapeCasts S1x64x128
  broadcasts_S128x1x128_S128x64x128 : S128x1x128.Broadcasts S128x64x128
  broadcasts_S1x64x128_S128x64x128 : S1x64x128.Broadcasts S128x64x128
  shapeCasts_S128_S1x1x128 : S128.ShapeCasts S1x1x128
  broadcasts_S1x1x128_S128x64x128 : S1x1x128.Broadcasts S128x64x128
  shapeCasts_S128x64x128_S8192x128 : S128x64x128.ShapeCasts S8192x128
  transposes_S3x128_p1_0_S128x3 : S3x128.Transposes [1, 0] S128x3
  shapeCasts_S3_S1x3 : S3.ShapeCasts S1x3
  broadcasts_S1x3_S8192x3 : S1x3.Broadcasts S8192x3
  shapeCasts_S8192x3_S128x64x3 : S8192x3.ShapeCasts S128x64x3
  inb_S1x128x64x3_S1x128x64x3_0_0_0_0 : ∀ a, (![0, 0, 0, 0] : Fin 4 → Nat) a + S1x128x64x3.size a ≤ S1x128x64x3.size a
  h_S1x128x64x3 : 0 < S1x128x64x3.numel
  shapeCasts_S1x128x64x3_S128x64x3 : S1x128x64x3.ShapeCasts S128x64x3
  shapeCasts_S128x64x3_S1x128x64x3 : S128x64x3.ShapeCasts S1x128x64x3
  dot_S128x128_S128x128_S128x128_1_0_0_1_n_n_wf : DotDims.WF S128x128 S128x128 S128x128 [1] [0] [0] [1] [] []
  dot_S64x128_S128x128_S64x128_1_0_0_1_n_n_wf : DotDims.WF S64x128 S128x128 S64x128 [1] [0] [0] [1] [] []
  dot_S8192x128_S128x3_S8192x3_1_0_0_1_n_n_wf : DotDims.WF S8192x128 S128x3 S8192x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x128.size a ≤ S4x512x128.size a
  hwx0_0 : ∀ i : grid0.Coords, EltTy.bits .f32 = 32 ∨ (Rect.block (s := S4x512x128) S1x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x128.size a ≤ S4x512x128.size a
  hwx0_1 : ∀ i : grid0.Coords, EltTy.bits .f32 = 32 ∨ (Rect.block (s := S4x512x128) S1x64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x128.size a ≤ S3x128.size a
  hwx0_4 : ∀ i : grid0.Coords, EltTy.bits .f32 = 32 ∨ (Rect.block (s := S3x128) S3x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3.size a ≤ S3.size a
  hwx0_5 : ∀ i : grid0.Coords, EltTy.bits .f32 = 32 ∨ (Rect.block (s := S3) S3.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x128x64x3.size a ≤ S4x512x512x3.size a
  hwx0_6 : ∀ i : grid0.Coords, EltTy.bits .f32 = 32 ∨ (Rect.block (s := S4x512x512x3) S1x128x64x3.size (cc0_transform_6 i) (hinb0_6 i)).WholeWords (EltTy.packing .f32)

variable [Facts₀]

def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S8192x128_S128x3_S8192x3_1_0_0_1_n_n : DotDims S8192x128 S128x3 S8192x3 where
  lhsContracting := [1]
  rhsContracting := [0]
  lhsNonContracting := [0]
  rhsNonContracting := [1]
  lhsBatch := []
  rhsBatch := []
  wf := dot_S8192x128_S128x3_S8192x3_1_0_0_1_n_n_wf

abbrev win0_0 : Pipeline.Window sig grid0 :=
  Pipeline.Window.ofSpec (Memref.whole main_arg0) S1x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x64x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S3x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S3.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S1x128x64x3.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4x512x128 : Shape := ⟨3, ![4, 512, 128]⟩
abbrev S128x256 : Shape := ⟨2, ![128, 256]⟩
abbrev S128 : Shape := ⟨1, ![128]⟩
abbrev S3x128 : Shape := ⟨2, ![3, 128]⟩
abbrev S3 : Shape := ⟨1, ![3]⟩
abbrev S128x128 : Shape := ⟨2, ![128, 128]⟩
abbrev S4x512x1x128 : Shape := ⟨4, ![4, 512, 1, 128]⟩
abbrev S4x1x512x128 : Shape := ⟨4, ![4, 1, 512, 128]⟩
abbrev S4x512x512x128 : Shape := ⟨4, ![4, 512, 512, 128]⟩
abbrev S1x1x1x128 : Shape := ⟨4, ![1, 1, 1, 128]⟩
abbrev S_ : Shape := ⟨0, ![]⟩
abbrev S4x512x512x3 : Shape := ⟨4, ![4, 512, 512, 3]⟩
abbrev S1x1x1x3 : Shape := ⟨4, ![1, 1, 1, 3]⟩

abbrev nBuf : Space → Nat
  | .hbm => 35
  | .vmem => 0
  | .smem => 0
  | _ => 0

abbrev bufTy : (tb : Table) → Fin (tcTables nBuf tb) → BufTy
  | .hbm, ⟨0, _⟩ => ⟨S4x512x128, .f32⟩
  | .hbm, ⟨1, _⟩ => ⟨S128x256, .f32⟩
  | .hbm, ⟨2, _⟩ => ⟨S128, .f32⟩
  | .hbm, ⟨3, _⟩ => ⟨S3x128, .f32⟩
  | .hbm, ⟨4, _⟩ => ⟨S3, .f32⟩
  | .hbm, ⟨5, _⟩ => ⟨S128x128, .f32⟩
  | .hbm, ⟨6, _⟩ => ⟨S4x512x128, .f32⟩
  | .hbm, ⟨7, _⟩ => ⟨S128x128, .f32⟩
  | .hbm, ⟨8, _⟩ => ⟨S4x512x128, .f32⟩
  | .hbm, ⟨9, _⟩ => ⟨S4x512x1x128, .f32⟩
  | .hbm, ⟨10, _⟩ => ⟨S4x1x512x128, .f32⟩
  | .hbm, ⟨11, _⟩ => ⟨S4x512x512x128, .f32⟩
  | .hbm, ⟨12, _⟩ => ⟨S4x512x512x128, .f32⟩
  | .hbm, ⟨13, _⟩ => ⟨S4x512x512x128, .f32⟩
  | .hbm, ⟨14, _⟩ => ⟨S1x1x1x128, .f32⟩
  | .hbm, ⟨15, _⟩ => ⟨S4x512x512x128, .f32⟩
  | .hbm, ⟨16, _⟩ => ⟨S4x512x512x128, .f32⟩
  | .hbm, ⟨17, _⟩ => ⟨S4x512x512x128, .f32⟩
  | .hbm, ⟨18, _⟩ => ⟨S4x512x512x128, .f32⟩
  | .hbm, ⟨19, _⟩ => ⟨S_, .f32⟩
  | .hbm, ⟨20, _⟩ => ⟨S4x512x512x128, .f32⟩
  | .hbm, ⟨21, _⟩ => ⟨S4x512x512x128, .f32⟩
  | .hbm, ⟨22, _⟩ => ⟨S_, .f32⟩
  | .hbm, ⟨23, _⟩ => ⟨S4x512x512x128, .f32⟩
  | .hbm, ⟨24, _⟩ => ⟨S4x512x512x128, .f32⟩
  | .hbm, ⟨25, _⟩ => ⟨S4x512x512x128, .f32⟩
  | .hbm, ⟨26, _⟩ => ⟨S4x512x512x3, .f32⟩
  | .hbm, ⟨27, _⟩ => ⟨S1x1x1x3, .f32⟩
  | .hbm, ⟨28, _⟩ => ⟨S4x512x512x3, .f32⟩
  | .hbm, ⟨29, _⟩ => ⟨S4x512x512x3, .f32⟩
  | .hbm, ⟨30, _⟩ => ⟨S4x512x512x3, .f32⟩
  | .hbm, ⟨31, _⟩ => ⟨S4x512x512x3, .f32⟩
  | .hbm, ⟨32, _⟩ => ⟨S_, .f32⟩
  | .hbm, ⟨33, _⟩ => ⟨S4x512x512x3, .f32⟩
  | .hbm, ⟨34, _⟩ => ⟨S4x512x512x3, .f32⟩
  | _, _ => ⟨S4x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_call0_v5 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst : Ref sig .tc := ⟨.hbm, 32, rfl⟩
abbrev main_v19 : Ref sig .tc := ⟨.hbm, 33, rfl⟩
abbrev main_v20 : Ref sig .tc := ⟨.hbm, 34, rfl⟩

abbrev nD : Nat := 1
abbrev τ : Topo := Topo.v7x

variable {F : FTy → Type} [FloatOps F]

class Facts₀ : Prop where
  slices_S128x256_S128x128_0_0 : S128x256.Slices ![0, 0] S128x128
  slices_S128x256_S128x128_0_128 : S128x256.Slices ![0, 128] S128x128
  bcast_S4x512x128_S4x512x1x128_0_1_3 : S4x512x128.BroadcastsInDim S4x512x1x128 (![0, 1, 3] : Fin 3 → Fin S4x512x1x128.rank)
  bcast_S4x512x128_S4x1x512x128_0_2_3 : S4x512x128.BroadcastsInDim S4x1x512x128 (![0, 2, 3] : Fin 3 → Fin S4x1x512x128.rank)
  bcast_S4x512x1x128_S4x512x512x128_0_1_2_3 : S4x512x1x128.BroadcastsInDim S4x512x512x128 (![0, 1, 2, 3] : Fin 4 → Fin S4x512x512x128.rank)
  bcast_S4x1x512x128_S4x512x512x128_0_1_2_3 : S4x1x512x128.BroadcastsInDim S4x512x512x128 (![0, 1, 2, 3] : Fin 4 → Fin S4x512x512x128.rank)
  bcast_S128_S1x1x1x128_3 : S128.BroadcastsInDim S1x1x1x128 (![3] : Fin 1 → Fin S1x1x1x128.rank)
  bcast_S1x1x1x128_S4x512x512x128_0_1_2_3 : S1x1x1x128.BroadcastsInDim S4x512x512x128 (![0, 1, 2, 3] : Fin 4 → Fin S4x512x512x128.rank)
  bcast_S_S4x512x512x128 : S_.BroadcastsInDim S4x512x512x128 (![] : Fin 0 → Fin S4x512x512x128.rank)
  bcast_S3_S1x1x1x3_3 : S3.BroadcastsInDim S1x1x1x3 (![3] : Fin 1 → Fin S1x1x1x3.rank)
  bcast_S1x1x1x3_S4x512x512x3_0_1_2_3 : S1x1x1x3.BroadcastsInDim S4x512x512x3 (![0, 1, 2, 3] : Fin 4 → Fin S4x512x512x3.rank)
  transposes_S4x512x512x3_S4x512x512x3_0_2_1_3 : S4x512x512x3.Transposes [0, 2, 1, 3] S4x512x512x3
  bcast_S_S4x512x512x3 : S_.BroadcastsInDim S4x512x512x3 (![] : Fin 0 → Fin S4x512x512x3.rank)
  dot_S4x512x128_S128x128_S4x512x128_2_1_01_0_n_n_wf : DotDims.WF S4x512x128 S128x128 S4x512x128 [2] [1] [0, 1] [0] [] []
  dot_S4x512x512x128_S3x128_S4x512x512x3_3_1_012_0_n_n_wf : DotDims.WF S4x512x512x128 S3x128 S4x512x512x3 [3] [1] [0, 1, 2] [0] [] []

variable [Facts₀]

def dot_S4x512x128_S128x128_S4x512x128_2_1_01_0_n_n : DotDims S4x512x128 S128x128 S4x512x128 where
  lhsContracting := [2]
  rhsContracting := [1]
  lhsNonContracting := [0, 1]
  rhsNonContracting := [0]
  lhsBatch := []
  rhsBatch := []
  wf := dot_S4x512x128_S128x128_S4x512x128_2_1_01_0_n_n_wf
def dot_S4x512x512x128_S3x128_S4x512x512x3_3_1_012_0_n_n : DotDims S4x512x512x128 S3x128 S4x512x512x3 where
  lhsContracting := [3]
  rhsContracting := [1]
  lhsNonContracting := [0, 1, 2]
  rhsNonContracting := [0]
  lhsBatch := []
  rhsBatch := []
  wf := dot_S4x512x512x128_S3x128_S4x512x512x3_3_1_012_0_n_n_wf

class Facts : Prop extends Facts₀ where

variable [Facts]
-- ==== Proof.LibSharedFrame.lean ====
/-
  A pipeline region whose input windows may read one array through several windows, run as a frame.

  When two input windows of a kernel region are blocks of the same array, the array's ownership has to be
  divided between them before the region starts; everything else about the run is as for distinct arrays.
  The theorem below takes that division as a hypothesis and concludes what the frame run of distinct arrays
  concludes: every array of the region ends at the contents the write-backs compose, every other unscoped
  buffer as the region found it. The region's own invariant starts from the scoped buffers that are no
  staging buffer (the scratch arrays, at any contents) and has to give them back at the end.
-/
import Idealize.ShloMosaic.Lib.Pipeline.Frame

noncomputable section

namespace Idealize.ShloMosaic

open Idealize.SL
open Idealize.SL.BI (sProp bigSep bigSep_map)
open scoped Idealize.SL.BI
open Idealize.SL.BI.BIBase Idealize.SL.BI.Laws Idealize.SL.Sem Idealize.SL.ProofMode
open Idealize.SL.RA
open TcCoe

namespace Pipeline

open Idealize.ShloMosaic.Rounds

set_option Elab.async false

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

/-- The frame run of a region whose windows may share arrays: from the body obligation, the layout facts that do
    not need the arrays distinct, the division of the arrays among the windows (`hsplit`), and an invariant that
    starts from the scratch buffers at any contents (`hin`) and returns them (`hout`). -/
theorem θ_run_frame_shared (cfgs : P → Cfg sig Λ₀)
    (dats : (p : P) → (c : Dev nD) → Dat τ Val Unit ℕ (UR sig nD τ) ℕ (cfgs p) c) (p : P)
    (hinj : Function.Injective (cellOf (nD := nD) (τ := τ) cfgs)) (hw : WinFacts₀ (cfgs p).spec)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (hne : ∀ w : Fin (cfgs p).W, 0 < ((cfgs p).spec w).block.numel)
    (harr : ∀ w, ((cfgs p).spec w).arr.IsWhole) (hstage : ∀ w s, (((cfgs p).spec w).stage s).IsWhole)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hin : ∀ c, (scopedRest (cfgs p).spec c : sProp 𝕄) ⊢ (dats p c).Φ 0)
    (hout : ∀ c, (dats p c).Φ (Fin.last (cfgs p).N) ⊢ (scopedRest (cfgs p).spec c : sProp 𝕄)) :
    θ_run (Pipeline.defs (fun q => Cfg.toPCfg (Val := Val) (cfgs q)) defs₀) (onTc main) (s₀ m g) (FramePost cfgs dats p V) := by
  classical
  exact θ_run_region_noSem_shared cfgs dats () hinj p hw emb₁ defs₀ 𝒱₀ m g main hbody hne harr hstage howed
    (u₀ := initOf (cells cfgs hinj) (launchToks cfgs hinj))
    (hu₀ := (show (ownU _ : sProp 𝕄) ⊢ BI.own (emb₁ (initOf (cells cfgs hinj) (launchToks cfgs hinj))) from .rfl))
    (V := V) (hmain := hmain) (hsplit := hsplit)
    (X := fun _ => iprop(emp)) (Y := fun _ => iprop(emp))
    (Z := fun c => unscopedRest (Ix := Unit) (Name := ℕ) (U := UR sig nD τ) (Lvl := ℕ) (cfgs p).spec c (V c))
    (hX := fun c => by
      iintro HU
      isplitr; · iempintro
      iexact HU)
    (hin := fun c => (show iprop(emp ∗ scopedRest (cfgs p).spec c) ⊢ (scopedRest (cfgs p).spec c : sProp 𝕄) from by
      iintro ⟨-, H⟩; iexact H).trans (hin c))
    (hout := fun c => (hout c).trans (by
      iintro H
      isplitr; · iempintro
      iexact H))
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => ⟨(h c).1, (h c).2⟩)

end Pipeline

end Idealize.ShloMosaic

end
-- ==== Proof.FrameBits.lean ====
/-
  The frame of the pair-scoring kernel: the region runs to its end at every grid point, faults nowhere, and
  leaves every argument array as it found it.

  The kernel reads the node features through TWO windows of one array: a block of 128 rows (the "i" rows of
  the pair tile) and a block of 64 rows (the "j" rows). Ownership of that array is therefore divided before
  the region starts, the left half of the full share to the first window and the right half to the second;
  reading needs no more than a share, and the two halves rejoin when the region ends. The four parameter
  arrays are held whole, and the output array outright.

  What the body leaves in the output tile's buffer is named `out6`: the one store's value, a function of the
  six input blocks. The output array after the run is the library's fold of the write-backs of `out6` over the
  128 grid points.
-/
import proofs.«157453_j2911987827332_1_alg».proof.Proof.Gen.Kernel.Launch
import proofs.«157453_j2911987827332_1_alg».proof.Proof.Gen.Kernel.Skeleton
import proofs.«157453_j2911987827332_1_alg».proof.Proof.Gen.Kernel.Points
import proofs.«157453_j2911987827332_1_alg».proof.Proof.LibSharedFrame
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The region's entry -/

/-- A core's buffers when the region is entered: as launched (the program is the region alone). -/
abbrev V (c : Dev nD) (b : Ref sig .tc) : Buf (Elt F) ((c : Thread nD τ).loc b) := m ((c : Thread nD τ).loc b)

/-- The program up to the region is nothing: it is the region alone. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current buffer holds its block at every point, whether the point fetches it or not (an
    unfetched window's block index has not moved since the fetch). -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current buffer holds its block at every point, whether the point fetches it or not (an
    unfetched window's block index has not moved since the fetch). -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current buffer holds its block at every point, whether the point fetches it or not (an
    unfetched window's block index has not moved since the fetch). -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current buffer holds its block at every point, whether the point fetches it or not (an
    unfetched window's block index has not moved since the fetch). -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current buffer holds its block at every point, whether the point fetches it or not (an
    unfetched window's block index has not moved since the fetch). -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current buffer holds its block at every point, whether the point fetches it or not (an
    unfetched window's block index has not moved since the fetch). -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev r0 : Rect S1x128x128 := Rect.unit (s := S1x128x128) ![0, 0, 0] S1x128x128.size inb_S1x128x128_S1x128x128_0_0_0
abbrev r1 : Rect S1x64x128 := Rect.unit (s := S1x64x128) ![0, 0, 0] S1x64x128.size inb_S1x64x128_S1x64x128_0_0_0
abbrev r2 : Rect S128x256 := Rect.unit (s := S128x256) ![0, 0] S128x256.size inb_S128x256_S128x256_0_0
abbrev r3 : Rect S128 := Rect.unit (s := S128) ![0] S128.size inb_S128_S128_0
abbrev r4 : Rect S3x128 := Rect.unit (s := S3x128) ![0, 0] S3x128.size inb_S3x128_S3x128_0_0
abbrev r5 : Rect S3 := Rect.unit (s := S3) ![0] S3.size inb_S3_S3_0
abbrev r6 : Rect S1x128x64x3 := Rect.unit (s := S1x128x64x3) ![0, 0, 0, 0] S1x128x64x3.size inb_S1x128x64x3_S1x128x64x3_0_0_0_0

/-! ## What the body leaves in the output tile's buffer -/

/-- The output tile's buffer after the body, from the six input blocks: its one store, which covers it. -/
def out6 (x0 : Vec F S1x128x128 .f32) (x1 : Vec F S1x64x128 .f32) (x2 : Vec F S128x256 .f32) (x3 : Vec F S128 .f32) (x4 : Vec F S3x128 .f32) (x5 : Vec F S3 .f32) : Vec F S1x128x64x3 .f32 :=
  View.canon [⟨r6, k0_pay1 (View.ld x3 r3) (k0_pay6 (View.ld x4 r4)) (View.ld x5 r5) (k0_pay7 (View.ld x0 r0) (View.ld x2 r2)) (k0_pay8 (View.ld x1 r1) (View.ld x2 r2))
    (k0_pay9 (View.ld x0 r0) (View.ld x1 r1) (View.ld x2 r2) (View.ld x3 r3) (View.ld x4 r4) (View.ld x5 r5))⟩]

/-- The store's rectangle is the whole buffer. -/
theorem cover6 (p0 : Vec F S1x128x64x3 .f32) (y : S1x128x64x3.Idx) :
    ∃ pc ∈ ([⟨r6, p0⟩] : List (View.Piece (Elt F) S1x128x64x3 .f32)), y ∈ pc.1.set :=
  View.cover_of_tiled [⟨r6, p0⟩] S1x128x64x3.size (by rfl) y

/-! ## The body's triple -/

set_option maxHeartbeats 2000000 in
/-- The body on whole buffers, the six inputs' at contents `x0 … x5` and the output's at anything, runs to the
    continuation holding the inputs' as they were and the output's at `out6` of the inputs'. -/
theorem sound_kernel (c : Dev nD) (E : Set ℕ) (i : grid0.Coords)
    (arg3 : Memref sig .tc .vmem S1x128x128 .f32) (harg3 : arg3.IsWhole) (arg4 : Memref sig .tc .vmem S1x64x128 .f32) (harg4 : arg4.IsWhole)
    (arg5 : Memref sig .tc .vmem S128x256 .f32) (harg5 : arg5.IsWhole) (arg6 : Memref sig .tc .vmem S128 .f32) (harg6 : arg6.IsWhole)
    (arg7 : Memref sig .tc .vmem S3x128 .f32) (harg7 : arg7.IsWhole) (arg8 : Memref sig .tc .vmem S3 .f32) (harg8 : arg8.IsWhole)
    (arg9 : Memref sig .tc .vmem S1x128x64x3 .f32) (harg9 : arg9.IsWhole)
    (x0 : Vec F S1x128x128 .f32) (x1 : Vec F S1x64x128 .f32) (x2 : Vec F S128x256 .f32) (x3 : Vec F S128 .f32) (x4 : Vec F S3x128 .f32) (x5 : Vec F S3 .f32)
    (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
        ∗ (∃ d, owns (c : Thread nD τ) arg9 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ owns (c : Thread nD τ) arg8 fullShare x5
            ∗ owns (c : Thread nD τ) arg9 fullShare (out6 x0 x1 x2 x3 x4 x5)) -∗ K ⟨⟩))
      ⊢ wp frame (wpE (defs₀ (F := F)) Variants.none c none) E (cc0__kernel i arg3 harg3 arg4 harg4 arg5 harg5 arg6 harg6 arg7 harg7 arg8 harg8 arg9 harg9) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (cover6 _)

/-! ## The proof data -/

/-- The proof data of the region on core `c`: the arrays as the region finds them; after the body at point `t` each
    input's buffer at its block and the output's at `out6` of the input blocks; the invariant the scoped buffers that
    are no staging buffer; nothing owed; of the node-feature array the left half share to its first window and the
    right half to its second, the parameter arrays whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out6 (iblk m c 0 t) (iblk m c 1 t) (iblk m c 2 t) (iblk m c 3 t) (iblk m c 4 t) (iblk m c 5 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = out6 (iblk m c 0 t) (iblk m c 1 t) (iblk m c 2 t) (iblk m c 3 t) (iblk m c 4 t) (iblk m c 5 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.RunBits.lean ====
/-
  The run of the pair-scoring kernel's region and its frame.

  The launch hands the region the buffers behind its windows' arrays, each whole. Two windows read the
  node-feature array, so its points-to is split along the share, left half and right half, one for each window;
  the other arrays go to their one window whole. From there the library's run of a region applies, and its
  post says what every array holds at the end: an input array what it held at entry, the output array the
  fold of the write-backs.
-/
import proofs.«157453_j2911987827332_1_alg».proof.Proof.FrameBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at entry, window by window -/

/-- What each window holds of its array at entry: the node-feature array's two windows a half share each, every other
    window its array whole. -/
def held (c : Dev nD) : Fin 7 → sProp 𝕄
  | ⟨0, _⟩ => (c.tc : Thread nD τ).loc main_arg0 ↦{fullShare.left} V m c main_arg0
  | ⟨1, _⟩ => (c.tc : Thread nD τ).loc main_arg0 ↦{fullShare.right} V m c main_arg0
  | ⟨2, _⟩ => (c.tc : Thread nD τ).loc main_arg1 ↦{fullShare} V m c main_arg1
  | ⟨3, _⟩ => (c.tc : Thread nD τ).loc main_arg2 ↦{fullShare} V m c main_arg2
  | ⟨4, _⟩ => (c.tc : Thread nD τ).loc main_arg3 ↦{fullShare} V m c main_arg3
  | ⟨5, _⟩ => (c.tc : Thread nD τ).loc main_arg4 ↦{fullShare} V m c main_arg4
  | ⟨6, _⟩ => (c.tc : Thread nD τ).loc main_v0 ↦{fullShare} V m c main_v0

/-- The proof data's statement of a window's array at entry is `held`: the array is a whole buffer, the share is the one
    the proof data names, and before any write-back the array holds its entry contents. -/
theorem held_eq (c : Dev nD) (w : Fin 7) :
    ((spec0 w).arr.view.loc (c.tc : Thread nD τ) ↦[(spec0 w).arr.view.set]{(dats m 0 c).share w} (dats m 0 c).arrAt w 0 : sProp 𝕄) = held m c w := by
  rw [(arr_whole0 w).set_eq_univ]
  match w with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl

/-- The distinct buffers behind the windows' arrays, one by one: the five argument arrays and the output array. -/
theorem arrBufs_eq (c : Dev nD) :
    (Pipeline.arrBufs (Ix := Unit) (Name := ℕ) (U := UR sig nD τ) (Lvl := ℕ) spec0 c (V m c) : sProp 𝕄)
      = iprop(((c.tc : Thread nD τ).loc main_arg0 ↦{fullShare} V m c main_arg0) ∗ ((c.tc : Thread nD τ).loc main_arg1 ↦{fullShare} V m c main_arg1)
        ∗ ((c.tc : Thread nD τ).loc main_arg2 ↦{fullShare} V m c main_arg2) ∗ ((c.tc : Thread nD τ).loc main_arg3 ↦{fullShare} V m c main_arg3)
        ∗ ((c.tc : Thread nD τ).loc main_arg4 ↦{fullShare} V m c main_arg4) ∗ ((c.tc : Thread nD τ).loc main_v0 ↦{fullShare} V m c main_v0)) := by
  unfold Pipeline.arrBufs
  exact bigSep_eq_bigSepL_of_eq [main_arg0, main_arg1, main_arg2, main_arg3, main_arg4, main_v0] (by decide) (by decide) _

/-- The buffers behind the windows' arrays, each whole, make the proof data's arrays at entry: the node-feature array's
    points-to splits along the share into the two halves its two windows hold. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq]
  unfold Pipeline.Dat.arrays
  refine BIBase.Entails.trans ?_ (Entails.of_eq ((bigSep_congr (s := Finset.univ) fun w _ => held_eq m c w).trans (bigSep_W0 (held m c))).symm)
  simp only [held]
  iintro ⟨H0, H1, H2, H3, H4, H5⟩
  ihave H0' := (pointsTo_share (PosShare.mem_left_op_right fullShare)).1 $$ H0
  icases H0' with ⟨H0a, H0b⟩
  isplitl [H0a]; · iexact H0a
  isplitl [H0b]; · iexact H0b
  isplitl [H1]; · iexact H1
  isplitl [H2]; · iexact H2
  isplitl [H3]; · iexact H3
  isplitl [H4]; · iexact H4
  iexact H5

/-! ## The run -/

set_option backward.isDefEq.respectTransparency.types false in
/-- Every weakly fair execution of the program terminates, and in every final state every array of the region holds what
    the library computes from the proof data, every other unscoped buffer what it held at the region's entry. -/
theorem run_main : θ_run defs (onTc (τ := τ) (main (F := F))) (s₀ m ρ) (Pipeline.FramePost cfgs (dats m) 0 (V m)) :=
  Pipeline.θ_run_frame_shared cfgs (dats m) (0 : Fin 1) cellOf_inj winFacts₀0 defs₀ Variants.none m ρ main
    (hbody := fun c => (body_obligation m c).loose) (hne := block_pos0) (harr := arr_whole0) (hstage := stage_whole0)
    (howed := fun _ _ => rfl) (V := V m) (hmain := hmain m Variants.none) (hsplit := hsplit m)
    (hin := fun _ => .rfl) (hout := fun _ => .rfl)

/-- The frame: the argument arrays end as they began. An array a window stages is never written by an input window, so
    it ends at its entry contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 0).trans (((dats m 0 c).arrAt_in 0 rfl _).trans (A_eq m c 0)),
      ((h c).1 2).trans (((dats m 0 c).arrAt_in 2 rfl _).trans (A_eq m c 2)),
      ((h c).1 3).trans (((dats m 0 c).arrAt_in 3 rfl _).trans (A_eq m c 3)),
      ((h c).1 4).trans (((dats m 0 c).arrAt_in 4 rfl _).trans (A_eq m c 4)),
      ((h c).1 5).trans (((dats m 0 c).arrAt_in 5 rfl _).trans (A_eq m c 5))⟩) (run_main m ρ)

end Cert.Kernel.Hand

end
-- ==== Proof.FrameIdeal.lean ====
/-
  The frame of the pair-scoring kernel: the region runs to its end at every grid point, faults nowhere, and
  leaves every argument array as it found it.

  The kernel reads the node features through TWO windows of one array: a block of 128 rows (the "i" rows of
  the pair tile) and a block of 64 rows (the "j" rows). Ownership of that array is therefore divided before
  the region starts, the left half of the full share to the first window and the right half to the second;
  reading needs no more than a share, and the two halves rejoin when the region ends. The four parameter
  arrays are held whole, and the output array outright.

  What the body leaves in the output tile's buffer is named `out6`: the one store's value, a function of the
  six input blocks. The output array after the run is the library's fold of the write-backs of `out6` over the
  128 grid points.
-/
import proofs.«157453_j2911987827332_1_alg».proof.Proof.Gen.KernelIdeal.Launch
import proofs.«157453_j2911987827332_1_alg».proof.Proof.Gen.KernelIdeal.Skeleton
import proofs.«157453_j2911987827332_1_alg».proof.Proof.Gen.KernelIdeal.Points
import proofs.«157453_j2911987827332_1_alg».proof.Proof.LibSharedFrame
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The region's entry -/

/-- A core's buffers when the region is entered: as launched (the program is the region alone). -/
abbrev V (c : Dev nD) (b : Ref sig .tc) : Buf (Elt F) ((c : Thread nD τ).loc b) := m ((c : Thread nD τ).loc b)

/-- The program up to the region is nothing: it is the region alone. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current buffer holds its block at every point, whether the point fetches it or not (an
    unfetched window's block index has not moved since the fetch). -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current buffer holds its block at every point, whether the point fetches it or not (an
    unfetched window's block index has not moved since the fetch). -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current buffer holds its block at every point, whether the point fetches it or not (an
    unfetched window's block index has not moved since the fetch). -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current buffer holds its block at every point, whether the point fetches it or not (an
    unfetched window's block index has not moved since the fetch). -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current buffer holds its block at every point, whether the point fetches it or not (an
    unfetched window's block index has not moved since the fetch). -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current buffer holds its block at every point, whether the point fetches it or not (an
    unfetched window's block index has not moved since the fetch). -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev r0 : Rect S1x128x128 := Rect.unit (s := S1x128x128) ![0, 0, 0] S1x128x128.size inb_S1x128x128_S1x128x128_0_0_0
abbrev r1 : Rect S1x64x128 := Rect.unit (s := S1x64x128) ![0, 0, 0] S1x64x128.size inb_S1x64x128_S1x64x128_0_0_0
abbrev r2 : Rect S128x256 := Rect.unit (s := S128x256) ![0, 0] S128x256.size inb_S128x256_S128x256_0_0
abbrev r3 : Rect S128 := Rect.unit (s := S128) ![0] S128.size inb_S128_S128_0
abbrev r4 : Rect S3x128 := Rect.unit (s := S3x128) ![0, 0] S3x128.size inb_S3x128_S3x128_0_0
abbrev r5 : Rect S3 := Rect.unit (s := S3) ![0] S3.size inb_S3_S3_0
abbrev r6 : Rect S1x128x64x3 := Rect.unit (s := S1x128x64x3) ![0, 0, 0, 0] S1x128x64x3.size inb_S1x128x64x3_S1x128x64x3_0_0_0_0

/-! ## What the body leaves in the output tile's buffer -/

/-- The output tile's buffer after the body, from the six input blocks: its one store, which covers it. -/
def out6 (x0 : Vec F S1x128x128 .f32) (x1 : Vec F S1x64x128 .f32) (x2 : Vec F S128x256 .f32) (x3 : Vec F S128 .f32) (x4 : Vec F S3x128 .f32) (x5 : Vec F S3 .f32) : Vec F S1x128x64x3 .f32 :=
  View.canon [⟨r6, k0_pay1 (View.ld x3 r3) (k0_pay6 (View.ld x4 r4)) (View.ld x5 r5) (k0_pay7 (View.ld x0 r0) (View.ld x2 r2)) (k0_pay8 (View.ld x1 r1) (View.ld x2 r2))
    (k0_pay9 (View.ld x0 r0) (View.ld x1 r1) (View.ld x2 r2) (View.ld x3 r3) (View.ld x4 r4) (View.ld x5 r5))⟩]

/-- The store's rectangle is the whole buffer. -/
theorem cover6 (p0 : Vec F S1x128x64x3 .f32) (y : S1x128x64x3.Idx) :
    ∃ pc ∈ ([⟨r6, p0⟩] : List (View.Piece (Elt F) S1x128x64x3 .f32)), y ∈ pc.1.set :=
  View.cover_of_tiled [⟨r6, p0⟩] S1x128x64x3.size (by rfl) y

/-! ## The body's triple -/

set_option maxHeartbeats 2000000 in
/-- The body on whole buffers, the six inputs' at contents `x0 … x5` and the output's at anything, runs to the
    continuation holding the inputs' as they were and the output's at `out6` of the inputs'. -/
theorem sound_kernel (c : Dev nD) (E : Set ℕ) (i : grid0.Coords)
    (arg3 : Memref sig .tc .vmem S1x128x128 .f32) (harg3 : arg3.IsWhole) (arg4 : Memref sig .tc .vmem S1x64x128 .f32) (harg4 : arg4.IsWhole)
    (arg5 : Memref sig .tc .vmem S128x256 .f32) (harg5 : arg5.IsWhole) (arg6 : Memref sig .tc .vmem S128 .f32) (harg6 : arg6.IsWhole)
    (arg7 : Memref sig .tc .vmem S3x128 .f32) (harg7 : arg7.IsWhole) (arg8 : Memref sig .tc .vmem S3 .f32) (harg8 : arg8.IsWhole)
    (arg9 : Memref sig .tc .vmem S1x128x64x3 .f32) (harg9 : arg9.IsWhole)
    (x0 : Vec F S1x128x128 .f32) (x1 : Vec F S1x64x128 .f32) (x2 : Vec F S128x256 .f32) (x3 : Vec F S128 .f32) (x4 : Vec F S3x128 .f32) (x5 : Vec F S3 .f32)
    (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
        ∗ (∃ d, owns (c : Thread nD τ) arg9 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ owns (c : Thread nD τ) arg8 fullShare x5
            ∗ owns (c : Thread nD τ) arg9 fullShare (out6 x0 x1 x2 x3 x4 x5)) -∗ K ⟨⟩))
      ⊢ wp frame (wpE (defs₀ (F := F)) Variants.none c none) E (cc0__kernel i arg3 harg3 arg4 harg4 arg5 harg5 arg6 harg6 arg7 harg7 arg8 harg8 arg9 harg9) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (cover6 _)

/-! ## The proof data -/

/-- The proof data of the region on core `c`: the arrays as the region finds them; after the body at point `t` each
    input's buffer at its block and the output's at `out6` of the input blocks; the invariant the scoped buffers that
    are no staging buffer; nothing owed; of the node-feature array the left half share to its first window and the
    right half to its second, the parameter arrays whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out6 (iblk m c 0 t) (iblk m c 1 t) (iblk m c 2 t) (iblk m c 3 t) (iblk m c 4 t) (iblk m c 5 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = out6 (iblk m c 0 t) (iblk m c 1 t) (iblk m c 2 t) (iblk m c 3 t) (iblk m c 4 t) (iblk m c 5 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.RunIdeal.lean ====
/-
  The run of the pair-scoring kernel's region and its frame.

  The launch hands the region the buffers behind its windows' arrays, each whole. Two windows read the
  node-feature array, so its points-to is split along the share, left half and right half, one for each window;
  the other arrays go to their one window whole. From there the library's run of a region applies, and its
  post says what every array holds at the end: an input array what it held at entry, the output array the
  fold of the write-backs.
-/
import proofs.«157453_j2911987827332_1_alg».proof.Proof.FrameIdeal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at entry, window by window -/

/-- What each window holds of its array at entry: the node-feature array's two windows a half share each, every other
    window its array whole. -/
def held (c : Dev nD) : Fin 7 → sProp 𝕄
  | ⟨0, _⟩ => (c.tc : Thread nD τ).loc main_arg0 ↦{fullShare.left} V m c main_arg0
  | ⟨1, _⟩ => (c.tc : Thread nD τ).loc main_arg0 ↦{fullShare.right} V m c main_arg0
  | ⟨2, _⟩ => (c.tc : Thread nD τ).loc main_arg1 ↦{fullShare} V m c main_arg1
  | ⟨3, _⟩ => (c.tc : Thread nD τ).loc main_arg2 ↦{fullShare} V m c main_arg2
  | ⟨4, _⟩ => (c.tc : Thread nD τ).loc main_arg3 ↦{fullShare} V m c main_arg3
  | ⟨5, _⟩ => (c.tc : Thread nD τ).loc main_arg4 ↦{fullShare} V m c main_arg4
  | ⟨6, _⟩ => (c.tc : Thread nD τ).loc main_v0 ↦{fullShare} V m c main_v0

/-- The proof data's statement of a window's array at entry is `held`: the array is a whole buffer, the share is the one
    the proof data names, and before any write-back the array holds its entry contents. -/
theorem held_eq (c : Dev nD) (w : Fin 7) :
    ((spec0 w).arr.view.loc (c.tc : Thread nD τ) ↦[(spec0 w).arr.view.set]{(dats m 0 c).share w} (dats m 0 c).arrAt w 0 : sProp 𝕄) = held m c w := by
  rw [(arr_whole0 w).set_eq_univ]
  match w with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl

/-- The distinct buffers behind the windows' arrays, one by one: the five argument arrays and the output array. -/
theorem arrBufs_eq (c : Dev nD) :
    (Pipeline.arrBufs (Ix := Unit) (Name := ℕ) (U := UR sig nD τ) (Lvl := ℕ) spec0 c (V m c) : sProp 𝕄)
      = iprop(((c.tc : Thread nD τ).loc main_arg0 ↦{fullShare} V m c main_arg0) ∗ ((c.tc : Thread nD τ).loc main_arg1 ↦{fullShare} V m c main_arg1)
        ∗ ((c.tc : Thread nD τ).loc main_arg2 ↦{fullShare} V m c main_arg2) ∗ ((c.tc : Thread nD τ).loc main_arg3 ↦{fullShare} V m c main_arg3)
        ∗ ((c.tc : Thread nD τ).loc main_arg4 ↦{fullShare} V m c main_arg4) ∗ ((c.tc : Thread nD τ).loc main_v0 ↦{fullShare} V m c main_v0)) := by
  unfold Pipeline.arrBufs
  exact bigSep_eq_bigSepL_of_eq [main_arg0, main_arg1, main_arg2, main_arg3, main_arg4, main_v0] (by decide) (by decide) _

/-- The buffers behind the windows' arrays, each whole, make the proof data's arrays at entry: the node-feature array's
    points-to splits along the share into the two halves its two windows hold. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq]
  unfold Pipeline.Dat.arrays
  refine BIBase.Entails.trans ?_ (Entails.of_eq ((bigSep_congr (s := Finset.univ) fun w _ => held_eq m c w).trans (bigSep_W0 (held m c))).symm)
  simp only [held]
  iintro ⟨H0, H1, H2, H3, H4, H5⟩
  ihave H0' := (pointsTo_share (PosShare.mem_left_op_right fullShare)).1 $$ H0
  icases H0' with ⟨H0a, H0b⟩
  isplitl [H0a]; · iexact H0a
  isplitl [H0b]; · iexact H0b
  isplitl [H1]; · iexact H1
  isplitl [H2]; · iexact H2
  isplitl [H3]; · iexact H3
  isplitl [H4]; · iexact H4
  iexact H5

/-! ## The run -/

set_option backward.isDefEq.respectTransparency.types false in
/-- Every weakly fair execution of the program terminates, and in every final state every array of the region holds what
    the library computes from the proof data, every other unscoped buffer what it held at the region's entry. -/
theorem run_main : θ_run defs (onTc (τ := τ) (main (F := F))) (s₀ m ρ) (Pipeline.FramePost cfgs (dats m) 0 (V m)) :=
  Pipeline.θ_run_frame_shared cfgs (dats m) (0 : Fin 1) cellOf_inj winFacts₀0 defs₀ Variants.none m ρ main
    (hbody := fun c => (body_obligation m c).loose) (hne := block_pos0) (harr := arr_whole0) (hstage := stage_whole0)
    (howed := fun _ _ => rfl) (V := V m) (hmain := hmain m Variants.none) (hsplit := hsplit m)
    (hin := fun _ => .rfl) (hout := fun _ => .rfl)

/-- The frame: the argument arrays end as they began. An array a window stages is never written by an input window, so
    it ends at its entry contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 0).trans (((dats m 0 c).arrAt_in 0 rfl _).trans (A_eq m c 0)),
      ((h c).1 2).trans (((dats m 0 c).arrAt_in 2 rfl _).trans (A_eq m c 2)),
      ((h c).1 3).trans (((dats m 0 c).arrAt_in 3 rfl _).trans (A_eq m c 3)),
      ((h c).1 4).trans (((dats m 0 c).arrAt_in 4 rfl _).trans (A_eq m c 4)),
      ((h c).1 5).trans (((dats m 0 c).arrAt_in 5 rfl _).trans (A_eq m c 5))⟩) (run_main m ρ)

end Cert.KernelIdeal.Hand

end
-- ==== Proof.Spec.lean ====
/-
  The pair-scoring head as one function of its arguments, on the extended reals.

  For a batch element, every ordered pair (i, j) of nodes gets three scores. Node i is projected by the first half of
  the first layer's weights (its "source" projection), node j by the second half (its "destination" projection); the
  sum of the two and the first bias goes through x ↦ x · σ(x), with σ the logistic function, and then through the
  second layer. The result for the pair is the mean of the scores of (i, j) and of (j, i).

  The kernel computes the scores of (j, i) with the two projections added in the other order; addition on the extended
  reals is commutative, so it is the same number, and this file states the head in the kernel's order.
-/
import Idealize.ShloMosaic.PureOps.Ideal
import Idealize.ShloMosaic.Lib.ValueIdx

noncomputable section

open scoped BigOperators

namespace Cert.PairSpec

open Idealize.ShloMosaic Idealize.ShloMosaic.ValueIdx

/-- Column `d` of the first half of the first layer's weights, -/
abbrev lo (d : Fin 128) : Fin 256 := ⟨d.val, by omega⟩
/-- and of the second half. -/
abbrev hi (d : Fin 128) : Fin 256 := ⟨128 + d.val, by omega⟩

/-- The source projection of one node's feature row: hidden unit `h` is the row against the first 128 columns of row `h` of the weights. -/
def srcRow (xr : Fin 128 → EReal) (w1 : (⟨2, ![128, 256]⟩ : Shape).Idx → EReal) (h : Fin 128) : EReal :=
  ∑ d : Fin 128, xr d * w1 (ix2 h (lo d))

/-- The destination projection: the row against the last 128 columns. -/
def dstRow (xr : Fin 128 → EReal) (w1 : (⟨2, ![128, 256]⟩ : Shape).Idx → EReal) (h : Fin 128) : EReal :=
  ∑ d : Fin 128, xr d * w1 (ix2 h (hi d))

/-- x · σ(x). -/
def silu (r : EReal) : EReal := r * Ideal.logistic r

/-- The second layer on a vector of pre-activations: score `c` is the activated vector against row `c` of the second
    weights, plus the second bias. -/
def head (u : Fin 128 → EReal) (w2 : (⟨2, ![3, 128]⟩ : Shape).Idx → EReal) (b2 : (⟨1, ![3]⟩ : Shape).Idx → EReal) (c : Fin 3) : EReal :=
  (∑ h : Fin 128, silu (u h) * w2 (ix2 c h)) + b2 (ix1 c)

/-- One half, as the single-precision word both programs multiply by. -/
def half : EReal := Ideal.ofBits .f32 0x3F000000#32

/-- The symmetrized score `c` of a pair of feature rows. -/
def pairScore (xi xj : Fin 128 → EReal) (w1 : (⟨2, ![128, 256]⟩ : Shape).Idx → EReal) (b1 : (⟨1, ![128]⟩ : Shape).Idx → EReal)
    (w2 : (⟨2, ![3, 128]⟩ : Shape).Idx → EReal) (b2 : (⟨1, ![3]⟩ : Shape).Idx → EReal) (c : Fin 3) : EReal :=
  (head (fun h => srcRow xi w1 h + dstRow xj w1 h + b1 (ix1 h)) w2 b2 c
    + head (fun h => dstRow xi w1 h + srcRow xj w1 h + b1 (ix1 h)) w2 b2 c) * half

/-- Row `n` of batch element `b` of the node features. -/
def row (x : (⟨3, ![4, 512, 128]⟩ : Shape).Idx → EReal) (b : Fin 4) (n : Fin 512) : Fin 128 → EReal := fun d => x (ix3 b n d)

/-- The whole result at (b, i, j, c). -/
def scoreAt (x : (⟨3, ![4, 512, 128]⟩ : Shape).Idx → EReal) (w1 : (⟨2, ![128, 256]⟩ : Shape).Idx → EReal) (b1 : (⟨1, ![128]⟩ : Shape).Idx → EReal)
    (w2 : (⟨2, ![3, 128]⟩ : Shape).Idx → EReal) (b2 : (⟨1, ![3]⟩ : Shape).Idx → EReal) (b : Fin 4) (i j : Fin 512) (c : Fin 3) : EReal :=
  pairScore (row x b i) (row x b j) w1 b1 w2 b2 c

/-- The whole result array. -/
def G (x : (⟨3, ![4, 512, 128]⟩ : Shape).Idx → EReal) (w1 : (⟨2, ![128, 256]⟩ : Shape).Idx → EReal) (b1 : (⟨1, ![128]⟩ : Shape).Idx → EReal)
    (w2 : (⟨2, ![3, 128]⟩ : Shape).Idx → EReal) (b2 : (⟨1, ![3]⟩ : Shape).Idx → EReal) : (⟨4, ![4, 512, 512, 3]⟩ : Shape).Idx → EReal :=
  fun y => scoreAt x w1 b1 w2 b2 (y 0) (y 1) (y 2) (y 3)

theorem G_ix4 (x : (⟨3, ![4, 512, 128]⟩ : Shape).Idx → EReal) (w1 : (⟨2, ![128, 256]⟩ : Shape).Idx → EReal) (b1 : (⟨1, ![128]⟩ : Shape).Idx → EReal)
    (w2 : (⟨2, ![3, 128]⟩ : Shape).Idx → EReal) (b2 : (⟨1, ![3]⟩ : Shape).Idx → EReal) (b : Fin 4) (i j : Fin 512) (c : Fin 3) :
    G x w1 b1 w2 b2 (ix4 b i j c) = scoreAt x w1 b1 w2 b2 b i j c := rfl

end Cert.PairSpec

end
-- ==== Proof.LibDenseRows.lean ====
/-
  General lemmas for kernels that push rows through dense layers, read at the exact (extended-real) instance.

  * `matmulT_zero_apply`: a matrix product of an [M, K] left operand with an [N, K] right operand, both contracted on
    their LAST axis, into a zero accumulator, is at (p, j) the plain sum over k of left (p, k) times right (j, k).
  * `rowSum_apply`: a sum of an [A, B] array along its last axis is at p the plain sum over k of the array at (p, k).
  * `shapeCast_a_a1_apply`: an [a] vector recast as an [a, 1] column reads, at (i, u), the vector at i.
  * `denseT_relu_apply`: a hidden layer as a kernel body spells it (product over last axes into a zero accumulator, bias
    row repeated down the rows, maximum with zero) is at (p, j) max (∑ₖ h (p, k) · w (j, k) + b j) 0.
  * `rowDot_bias_apply`: an output layer of width one spelt as multiply by the one weight row, sum along the row, add the
    one bias, is at (p, u) ∑ₖ h (p, k) · w (0, k) + b 0.
-/
import Idealize.ShloMosaic.Lib.ValueIdx
import Idealize.ShloMosaic.Lib.ValueLayout
import Idealize.ShloMosaic.PureOps.Ideal.Laws

noncomputable section

open scoped BigOperators

namespace Cert.DenseRows

open Idealize.ShloMosaic Idealize.ShloMosaic.ValueIdx

variable {M K N : ℕ}

/-! ## The operand indices of a product contracted on both last axes -/

/-- The left operand's row is the result's row. -/
theorem lhsT_0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's column is the contraction position. -/
theorem lhsT_1 (i : (⟨2, ![M, N]⟩ : Shape).Idx) (q : (DotDims.transposedRhs M K N).contr.Idx) :
    ((DotDims.transposedRhs M K N).lhsIdx i q 1).val = (q ⟨0, Nat.one_pos⟩).val :=
  (DotDims.transposedRhs M K N).lhsIdx_val_of_single rfl i q

/-- The right operand's row is the result's column. -/
theorem rhsT_0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's column is the contraction position. -/
theorem rhsT_1 (i : (⟨2, ![M, N]⟩ : Shape).Idx) (q : (DotDims.transposedRhs M K N).contr.Idx) :
    ((DotDims.transposedRhs M K N).rhsIdx i q 1).val = (q ⟨0, Nat.one_pos⟩).val :=
  (DotDims.transposedRhs M K N).rhsIdx_val_of_single rfl i q

/-- A product of an [M, K] array with an [N, K] array over their last axes, into a zero accumulator, at (p, j):
    the sum over k of left (p, k) times right (j, k). No order of summation is left in it: the sum is the
    extended reals' commutative one. -/
theorem matmulT_zero_apply {φ₁ φ₂ : FTy} (prec : Option ContractPrecision) (h : FVec Ideal ⟨2, ![M, K]⟩ φ₁) (w : FVec Ideal ⟨2, ![N, K]⟩ φ₂)
    (p : Fin M) (j : Fin N) :
    FloatOps.matmul (DotDims.transposedRhs M K N) prec h w (constant ⟨2, ![M, N]⟩ .f32 0x00000000#32) (ix2 p j)
      = ∑ k : Fin K, h (ix2 p k) * w (ix2 j k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p j) ((contrEquiv1 (DotDims.transposedRhs M K N) K rfl rfl).symm k) = ix2 p k :=
    funext fun a => Fin.ext (by
      match a with
      | ⟨0, _⟩ => exact lhsT_0 _ _
      | ⟨1, _⟩ => exact (lhsT_1 _ _).trans hk)
  have er : (DotDims.transposedRhs M K N).rhsIdx (ix2 p j) ((contrEquiv1 (DotDims.transposedRhs M K N) K rfl rfl).symm k) = ix2 j k :=
    funext fun a => Fin.ext (by
      match a with
      | ⟨0, _⟩ => exact rhsT_0 _ _
      | ⟨1, _⟩ => exact (rhsT_1 _ _).trans hk)
  rw [el, er]

/-! ## A sum along the last axis -/

/-- The sum of an [A, B] array along its last axis, at p, is the sum over k of the array at (p, k). -/
theorem rowSum_apply {A B : ℕ} {φ : FTy} (src : FVec Ideal ⟨2, ![A, B]⟩ φ) (acc : BitVec φ.bits)
    (h : (⟨2, ![A, B]⟩ : Shape).Reduces [1] ⟨1, ![A]⟩) (hφ : FKind.Formats φ) (hacc : acc = FKind.add.neutral φ hφ) (p : Fin A) :
    multiReduction .add [1] ⟨1, ![A]⟩ src acc h hφ hacc (ix1 p) = ∑ k : Fin B, src (ix2 p k) := by
  refine (Ideal.multiReduction_add_single src acc h hφ hacc (ix1 p)).trans ?_
  refine Finset.sum_congr rfl fun k _ => congrArg src (funext fun c => Fin.ext ?_)
  rw [h.lift_val]
  match c with
  | ⟨0, _⟩ => rfl
  | ⟨1, _⟩ => rfl

/-! ## A vector recast as a column -/

/-- An [a] vector recast as an [a, 1] column reads, at (i, u), the vector at i, whatever the unit coordinate u. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## Whole layers at one entry -/

/-- A hidden layer as a kernel body spells it — the product of [M, K] activations with [J, K] weights over their last
    axes into a zero accumulator, plus the [J] bias recast as one row and repeated down the rows, then the maximum with
    the zero splat — is, at (p, j), max (∑ₖ h (p, k) · w (j, k) + b j) 0. -/
theorem denseT_relu_apply {J : ℕ} {φ₁ φ₂ : FTy} (prec : Option ContractPrecision) (h : FVec Ideal ⟨2, ![M, K]⟩ φ₁)
    (w : FVec Ideal ⟨2, ![J, K]⟩ φ₂) (b : FVec Ideal ⟨1, ![J]⟩ .f32) (hc : (⟨1, ![J]⟩ : Shape).ShapeCasts ⟨2, ![1, J]⟩)
    (hb : (⟨2, ![1, J]⟩ : Shape).Broadcasts ⟨2, ![M, J]⟩) (p : Fin M) (j : Fin J) :
    maximumf (addf (matmul (DotDims.transposedRhs M K J) prec h w (constant ⟨2, ![M, J]⟩ .f32 0x00000000#32))
        (broadcastTo ⟨2, ![M, J]⟩ (shapeCast ⟨2, ![1, J]⟩ b hc) hb))
      (broadcast ⟨2, ![M, J]⟩ (Scalar.ofBits (F := Ideal) .f32 0x00000000#32)) (ix2 p j)
      = max ((∑ k : Fin K, h (ix2 p k) * w (ix2 j k)) + b (ix1 j)) 0 :=
  congrArg₂ max (congrArg₂ (· + ·) (matmulT_zero_apply prec h w p j)
    ((broadcastTo_1b_ab_apply _ hb p j).trans (shapeCast_a_1a_apply b hc 0 j))) Ideal.ofBits_zero_f32

/-- An output layer of width one spelt on the vector unit — the [M, K] activations times the one [1, K] weight row repeated
    down the rows, summed along each row, recast as a column, plus the one bias repeated down the column — is, at
    (p, u), ∑ₖ h (p, k) · w (0, k) + b 0. -/
theorem rowDot_bias_apply (h : FVec Ideal ⟨2, ![M, K]⟩ .f32) (w : FVec Ideal ⟨2, ![1, K]⟩ .f32) (b : FVec Ideal ⟨1, ![1]⟩ .f32)
    (hw : (⟨2, ![1, K]⟩ : Shape).Broadcasts ⟨2, ![M, K]⟩) (hr : (⟨2, ![M, K]⟩ : Shape).Reduces [1] ⟨1, ![M]⟩)
    (hφ : FKind.Formats .f32) (hacc : (0x00000000#32 : BitVec FTy.f32.bits) = FKind.add.neutral .f32 hφ)
    (hs : (⟨1, ![M]⟩ : Shape).ShapeCasts ⟨2, ![M, 1]⟩) (hc : (⟨1, ![1]⟩ : Shape).ShapeCasts ⟨2, ![1, 1]⟩)
    (hb : (⟨2, ![1, 1]⟩ : Shape).Broadcasts ⟨2, ![M, 1]⟩) (p : Fin M) (u : Fin 1) :
    addf (shapeCast ⟨2, ![M, 1]⟩ (multiReduction .add [1] ⟨1, ![M]⟩ (mulf h (broadcastTo ⟨2, ![M, K]⟩ w hw)) 0x00000000#32 hr hφ hacc) hs)
        (broadcastTo ⟨2, ![M, 1]⟩ (shapeCast ⟨2, ![1, 1]⟩ b hc) hb) (ix2 p u)
      = (∑ k : Fin K, h (ix2 p k) * w (ix2 (0 : Fin 1) k)) + b (ix1 (0 : Fin 1)) :=
  congrArg₂ (· + ·)
    (((shapeCast_a_a1_apply _ hs p u).trans (rowSum_apply _ _ hr hφ hacc p)).trans
      (Finset.sum_congr rfl fun k _ => congrArg (h (ix2 p k) * ·) (broadcastTo_1b_ab_apply w hw p k)))
    (((broadcastTo_1b_ab_apply _ hb p u).trans (shapeCast_a_1a_apply b hc 0 u)).trans
      (congrArg (fun t : Fin 1 => b (ix1 t)) (Subsingleton.elim u 0)))

end Cert.DenseRows

end
-- ==== Proof.LibColumns.lean ====
/-
  General lemmas for kernels that keep a per-row number as an [a, 1] column.

  * `broadcastTo_a1_ab_apply`: an [a, 1] column repeated along the rows of an [a, b] array reads, at (p, c), the column at p.
  * `keepdimsSum_apply`: a sum of an [a, b] array along its last axis kept as an [a, 1] column reads, at (p, u), the plain
    sum over k of the array at (p, k).
-/
import Idealize.ShloMosaic.Lib.ValueIdx
import Idealize.ShloMosaic.Lib.ValueLayout
import Idealize.ShloMosaic.Lib.Pipeline.Value
import Idealize.ShloMosaic.PureOps.Ideal.Laws
import proofs.«157453_j2911987827332_1_alg».proof.Proof.LibDenseRows

noncomputable section

open scoped BigOperators

namespace Cert.Columns

open Idealize.ShloMosaic Idealize.ShloMosaic.ValueIdx

/-- An [a, 1] column broadcast to [a, b] reads, at (p, c), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an [a, b] array along its last axis, kept as an [a, 1] column: at (p, u) the sum over k of the array at (p, k). -/
theorem keepdimsSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hs : (⟨1, ![a]⟩ : Shape).ShapeCasts ⟨2, ![a, 1]⟩) (p : Fin a) (u : Fin 1) :
    shapeCast ⟨2, ![a, 1]⟩ (multiReduction .add [1] ⟨1, ![a]⟩ src acc h hφ hacc) hs (ix2 p u) = ∑ k : Fin b, src (ix2 p k) :=
  (Cert.DenseRows.shapeCast_a_a1_apply _ hs p u).trans (Cert.DenseRows.rowSum_apply src acc h hφ hacc p)

end Cert.Columns

end
-- ==== Proof.LibPlainLayers.lean ====
/-
  General lemmas for kernels built of plain matrix products, bias rows and row normalisation, read at the exact
  (extended-real) instance, one entry at a time.

  * `plainMM_zero_apply`: an [M, K] by [K, N] product into a zero accumulator is at (p, j) the plain sum over k of
    left (p, k) times right (k, j); `plainMM_of_eq` is the same for any record of dimension numbers equal to the plain one.
  * `dense_relu_apply`: product, plus a [1, N] bias row repeated down the rows, then the maximum with zero.
  * `dense_bias_apply`: product plus the repeated bias row.
  * `l2norm_apply`: each row times the reciprocal square root of the larger of its sum of squares and a floor.
-/
import Idealize.ShloMosaic.Lib.ValueIdx
import Idealize.ShloMosaic.Lib.ValueLayout
import Idealize.ShloMosaic.Lib.Pipeline.Value
import Idealize.ShloMosaic.PureOps.Ideal.Laws
import proofs.«157453_j2911987827332_1_alg».proof.Proof.LibDenseRows
import proofs.«157453_j2911987827332_1_alg».proof.Proof.LibColumns

noncomputable section

open scoped BigOperators

namespace Cert.PlainLayers

open Idealize.ShloMosaic Idealize.ShloMosaic.ValueIdx

variable {M K N : ℕ}

/-! ## The operand indices of a plain product -/

theorem plainL_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plainL_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plainR_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plainR_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- A plain product into a zero accumulator at (p, j): the sum over k of left (p, k) times right (k, j). -/
theorem plainMM_zero_apply {φ₁ φ₂ : FTy} (prec : Option ContractPrecision) (h : FVec Ideal ⟨2, ![M, K]⟩ φ₁) (w : FVec Ideal ⟨2, ![K, N]⟩ φ₂)
    (p : Fin M) (j : Fin N) :
    FloatOps.matmul (DotDims.plain M K N) prec h w (constant ⟨2, ![M, N]⟩ .f32 0x00000000#32) (ix2 p j)
      = ∑ k : Fin K, h (ix2 p k) * w (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p j) ((contrEquiv1 (DotDims.plain M K N) K rfl rfl).symm k) = ix2 p k :=
    funext fun a => Fin.ext (by
      match a with
      | ⟨0, _⟩ => exact plainL_0 _ _
      | ⟨1, _⟩ => exact (plainL_1 _ _).trans hk)
  have er : (DotDims.plain M K N).rhsIdx (ix2 p j) ((contrEquiv1 (DotDims.plain M K N) K rfl rfl).symm k) = ix2 k j :=
    funext fun a => Fin.ext (by
      match a with
      | ⟨0, _⟩ => exact (plainR_0 _ _).trans hk
      | ⟨1, _⟩ => exact plainR_1 _ _)
  rw [el, er]

/-- The same for any record of dimension numbers that is the plain one. -/
theorem plainMM_of_eq {φ₁ φ₂ : FTy} (D : DotDims ⟨2, ![M, K]⟩ ⟨2, ![K, N]⟩ ⟨2, ![M, N]⟩) (hD : D = DotDims.plain M K N)
    (prec : Option ContractPrecision) (h : FVec Ideal ⟨2, ![M, K]⟩ φ₁) (w : FVec Ideal ⟨2, ![K, N]⟩ φ₂) (p : Fin M) (j : Fin N) :
    FloatOps.matmul D prec h w (constant ⟨2, ![M, N]⟩ .f32 0x00000000#32) (ix2 p j) = ∑ k : Fin K, h (ix2 p k) * w (ix2 k j) := by
  subst hD; exact plainMM_zero_apply prec h w p j

/-- A plain product into any accumulator at (p, j): the accumulator there plus the sum. -/
theorem plainMM_acc_of_eq {φ₁ φ₂ : FTy} (D : DotDims ⟨2, ![M, K]⟩ ⟨2, ![K, N]⟩ ⟨2, ![M, N]⟩) (hD : D = DotDims.plain M K N)
    (prec : Option ContractPrecision) (h : FVec Ideal ⟨2, ![M, K]⟩ φ₁) (w : FVec Ideal ⟨2, ![K, N]⟩ φ₂) (acc : FVec Ideal ⟨2, ![M, N]⟩ .f32)
    (p : Fin M) (j : Fin N) :
    FloatOps.matmul D prec h w acc (ix2 p j) = acc (ix2 p j) + ∑ k : Fin K, h (ix2 p k) * w (ix2 k j) := by
  subst hD
  rw [Ideal.matmul_apply, ← plainMM_zero_apply prec h w p j, Ideal.matmul_constant_zero_apply]

/-- Product plus a [1, N] bias row repeated down the rows, at (p, j). -/
theorem dense_bias_apply (D : DotDims ⟨2, ![M, K]⟩ ⟨2, ![K, N]⟩ ⟨2, ![M, N]⟩) (hD : D = DotDims.plain M K N)
    (prec : Option ContractPrecision) (h : FVec Ideal ⟨2, ![M, K]⟩ .f32) (w : FVec Ideal ⟨2, ![K, N]⟩ .f32) (b : FVec Ideal ⟨2, ![1, N]⟩ .f32)
    (hc : (⟨2, ![1, N]⟩ : Shape).ShapeCasts ⟨2, ![1, N]⟩) (hb : (⟨2, ![1, N]⟩ : Shape).Broadcasts ⟨2, ![M, N]⟩) (p : Fin M) (j : Fin N) :
    addf (matmul D prec h w (constant ⟨2, ![M, N]⟩ .f32 0x00000000#32)) (broadcastTo ⟨2, ![M, N]⟩ (shapeCast ⟨2, ![1, N]⟩ b hc) hb) (ix2 p j)
      = (∑ k : Fin K, h (ix2 p k) * w (ix2 k j)) + b (ix2 (0 : Fin 1) j) :=
  congrArg₂ (· + ·) (plainMM_of_eq D hD prec h w p j)
    ((broadcastTo_1b_ab_apply _ hb p j).trans (congrFun (shapeCast_self b hc) _))

/-- Product, bias row, maximum with zero, at (p, j). -/
theorem dense_relu_apply (D : DotDims ⟨2, ![M, K]⟩ ⟨2, ![K, N]⟩ ⟨2, ![M, N]⟩) (hD : D = DotDims.plain M K N)
    (prec : Option ContractPrecision) (h : FVec Ideal ⟨2, ![M, K]⟩ .f32) (w : FVec Ideal ⟨2, ![K, N]⟩ .f32) (b : FVec Ideal ⟨2, ![1, N]⟩ .f32)
    (hc : (⟨2, ![1, N]⟩ : Shape).ShapeCasts ⟨2, ![1, N]⟩) (hb : (⟨2, ![1, N]⟩ : Shape).Broadcasts ⟨2, ![M, N]⟩) (p : Fin M) (j : Fin N) :
    maximumf (addf (matmul D prec h w (constant ⟨2, ![M, N]⟩ .f32 0x00000000#32)) (broadcastTo ⟨2, ![M, N]⟩ (shapeCast ⟨2, ![1, N]⟩ b hc) hb))
        (broadcast ⟨2, ![M, N]⟩ (Scalar.ofBits (F := Ideal) .f32 0x00000000#32)) (ix2 p j)
      = max ((∑ k : Fin K, h (ix2 p k) * w (ix2 k j)) + b (ix2 (0 : Fin 1) j)) 0 :=
  congrArg₂ max (dense_bias_apply D hD prec h w b hc hb p j) Ideal.ofBits_zero_f32

/-- Each row of an [A, B] array times the reciprocal square root of the larger of the row's sum of squares and a floor,
    at (p, q). -/
theorem l2norm_apply {A B : ℕ} (P : FVec Ideal ⟨2, ![A, B]⟩ .f32) (acc : BitVec FTy.f32.bits)
    (hr : (⟨2, ![A, B]⟩ : Shape).Reduces [1] ⟨1, ![A]⟩) (hφ : FKind.Formats .f32) (hacc : acc = FKind.add.neutral .f32 hφ)
    (hs : (⟨1, ![A]⟩ : Shape).ShapeCasts ⟨2, ![A, 1]⟩) (fl : BitVec FTy.f32.bits) (hbc : (⟨2, ![A, 1]⟩ : Shape).Broadcasts ⟨2, ![A, B]⟩)
    (p : Fin A) (q : Fin B) :
    mulf P (broadcastTo ⟨2, ![A, B]⟩ (rsqrt (maximumf (shapeCast ⟨2, ![A, 1]⟩ (multiReduction .add [1] ⟨1, ![A]⟩ (mulf P P) acc hr hφ hacc) hs)
        (broadcast ⟨2, ![A, 1]⟩ (Scalar.ofBits (F := Ideal) .f32 fl)))) hbc) (ix2 p q)
      = P (ix2 p q) * FloatOps.rsqrt (F := Ideal) (φ := .f32) (max (∑ k : Fin B, P (ix2 p k) * P (ix2 p k)) (Ideal.ofBits .f32 fl)) := by
  refine congrArg (P (ix2 p q) * ·) ?_
  refine (Cert.Columns.broadcastTo_a1_ab_apply _ hbc p q).trans ?_
  exact congrArg (fun t => FloatOps.rsqrt (F := Ideal) (φ := .f32) (max t (Ideal.ofBits .f32 fl)))
    (Cert.Columns.keepdimsSum_apply (mulf P P) acc hr hφ hacc hs p 0)

/-- The same, the array's entries of row p given by a formula `R`. -/
theorem l2norm_apply_of {A B : ℕ} (P : FVec Ideal ⟨2, ![A, B]⟩ .f32) (R : Fin B → EReal) (p : Fin A) (hP : ∀ e, P (ix2 p e) = R e)
    (acc : BitVec FTy.f32.bits)
    (hr : (⟨2, ![A, B]⟩ : Shape).Reduces [1] ⟨1, ![A]⟩) (hφ : FKind.Formats .f32) (hacc : acc = FKind.add.neutral .f32 hφ)
    (hs : (⟨1, ![A]⟩ : Shape).ShapeCasts ⟨2, ![A, 1]⟩) (fl : BitVec FTy.f32.bits) (hbc : (⟨2, ![A, 1]⟩ : Shape).Broadcasts ⟨2, ![A, B]⟩)
    (q : Fin B) :
    mulf P (broadcastTo ⟨2, ![A, B]⟩ (rsqrt (maximumf (shapeCast ⟨2, ![A, 1]⟩ (multiReduction .add [1] ⟨1, ![A]⟩ (mulf P P) acc hr hφ hacc) hs)
        (broadcast ⟨2, ![A, 1]⟩ (Scalar.ofBits (F := Ideal) .f32 fl)))) hbc) (ix2 p q)
      = R q * FloatOps.rsqrt (F := Ideal) (φ := .f32) (max (∑ k : Fin B, R k * R k) (Ideal.ofBits .f32 fl)) := by
  rw [l2norm_apply P acc hr hφ hacc hs fl hbc p q]
  simp only [hP]

/-- A sum of an [A, 1, B] array along its leading axis, at (u, e): the sum over s of the array at (s, u, e). -/
theorem leadSum_apply {A B : ℕ} {φ : FTy} (src : FVec Ideal ⟨3, ![A, 1, B]⟩ φ) (acc : BitVec φ.bits)
    (h : (⟨3, ![A, 1, B]⟩ : Shape).Reduces [0] ⟨2, ![1, B]⟩) (hφ : FKind.Formats φ) (hacc : acc = FKind.add.neutral φ hφ)
    (u : Fin 1) (e : Fin B) :
    multiReduction .add [0] ⟨2, ![1, B]⟩ src acc h hφ hacc (ix2 u e) = ∑ s : Fin A, src (ix3 s u e) := by
  refine (Ideal.multiReduction_add_single src acc h hφ hacc (ix2 u e)).trans ?_
  refine Finset.sum_congr rfl fun k _ => congrArg src (funext fun c => Fin.ext ?_)
  rw [h.lift_val]
  match c with
  | ⟨0, _⟩ => rfl
  | ⟨1, _⟩ => rfl
  | ⟨2, _⟩ => rfl

end Cert.PlainLayers

end
-- ==== Proof.LibMidAxis.lean ====
/-
  Two layout operations read at an index, generic in the sizes: an [a, b] array recast as [a, 1, b] (a unit axis put in
  the middle), and an [a, 1, b] array repeated along that unit axis to [a, g, b]. Together they are
  `v[:, None, :]` broadcast against an [a, g, b] array: position (p, k, c) holds v(p, c) for every k.
-/
import Idealize.ShloMosaic.Lib.ValueIdx
import Idealize.ShloMosaic.Lib.Pipeline.Value

namespace Cert.MidAxis

open Idealize.ShloMosaic Idealize.ShloMosaic.ValueIdx

variable {α : Type} {a g b : ℕ}

/-- An [a, b] array recast as [a, 1, b]: position (p, 0, c) holds the entry at (p, c), the two indices having one
    row-major position. -/
theorem shapeCast_ab_a1b_apply (x : (⟨2, ![a, b]⟩ : Shape).Idx → α) (h : (⟨2, ![a, b]⟩ : Shape).ShapeCasts ⟨3, ![a, 1, b]⟩)
    (p : Fin a) (c : Fin b) :
    shapeCast ⟨3, ![a, 1, b]⟩ x h (ix3 p (0 : Fin 1) c) = x (ix2 p c) :=
  shapeCast_apply x h _ _ (by
    rw [Shape.rowMajor_val_two, Shape.rowMajor_val_three]
    show p.val * b + c.val = (p.val * 1 + 0) * b + c.val
    rw [Nat.mul_one, Nat.add_zero])

/-- An [a, 1, b] array repeated along its unit axis to [a, g, b]: position (p, k, c) holds the entry at (p, 0, c). -/
theorem broadcastTo_a1b_agb_apply (v : (⟨3, ![a, 1, b]⟩ : Shape).Idx → α) (h : (⟨3, ![a, 1, b]⟩ : Shape).Broadcasts ⟨3, ![a, g, b]⟩)
    (p : Fin a) (k : Fin g) (c : Fin b) :
    broadcastTo ⟨3, ![a, g, b]⟩ v h (ix3 p k c) = v (ix3 p (0 : Fin 1) c) := by
  refine broadcastTo_apply v h (ix3 p k c) (ix3 p (0 : Fin 1) c) fun ax => ?_
  match ax with
  | ⟨0, _⟩ =>
    show p.val = if a = 1 then 0 else p.val
    split
    · have := p.isLt; omega
    · rfl
  | ⟨1, _⟩ => rfl
  | ⟨2, _⟩ =>
    show c.val = if b = 1 then 0 else c.val
    split
    · have := c.isLt; omega
    · rfl

/-- The two together: `v[:, None, :]` against an [a, g, b] array reads v(p, c) at (p, k, c). -/
theorem keepMid_apply (x : (⟨2, ![a, b]⟩ : Shape).Idx → α) (hc : (⟨2, ![a, b]⟩ : Shape).ShapeCasts ⟨3, ![a, 1, b]⟩)
    (hb : (⟨3, ![a, 1, b]⟩ : Shape).Broadcasts ⟨3, ![a, g, b]⟩) (p : Fin a) (k : Fin g) (c : Fin b) :
    broadcastTo ⟨3, ![a, g, b]⟩ (shapeCast ⟨3, ![a, 1, b]⟩ x hc) hb (ix3 p k c) = x (ix2 p c) :=
  (broadcastTo_a1b_agb_apply _ hb p k c).trans (shapeCast_ab_a1b_apply x hc p c)

end Cert.MidAxis
-- ==== Proof.LibLeadFold.lean ====
/-
  General lemmas for kernels that fold the two leading axes of an [a, b, n] array into one of length m = a · b before a
  matrix product and unfold them afterwards, that take a maximum along the last axis of an array, and that repeat a
  vector of length n over an [a, b, n] array; each read at one index.

  * `shapeCast_abn_mn_apply`: an [a, b, n] array recast as [m, n] reads, at (p · b + q, k), the array at (p, q, k).
  * `shapeCast_mn_abn_apply`: an [m, n] array recast as [a, b, n] reads, at (p, q, k), the array at (p · b + q, k).
  * `shapeCast_abpq_mpq_apply`: an [a, b, p, q] array recast as [m, p, q] reads, at (u · b + v, i, k), the array at (u, v, i, k).
  * `shapeCast_mpq_abpq_apply`: an [m, p, q] array recast as [a, b, p, q] reads, at (u, v, i, k), the array at (u · b + v, i, k).
  * `lastMax3_apply`: at the exact (extended-real) instance, the maximum of an [a, g, n] array along its last axis is,
    at (p, gi), the fold of max from the accumulator's value over k of the array at (p, gi, k).
  * `hostLastMax4_apply`: the host's one-operand reduce with a maximum body along the last axis of an [a, b, c, n]
    array is, at (p, q, r), the fold of max from the initial value over k of the array at (p, q, r, k).
  * `shapeCast_n_11n_apply`: a vector of length n recast as [1, 1, n] reads, at (u, v, k), the vector at k.
  * `broadcastTo_11n_abn_apply`: a [1, 1, n] array repeated over [a, b, n] reads, at (p, q, k), the array at (0, 0, k).
-/
import Idealize.ShloMosaic.Lib.ValueIdx
import Idealize.ShloMosaic.Lib.Pipeline.Value
import Idealize.ShloMosaic.PureOps.Ideal.Laws

noncomputable section

open scoped BigOperators

namespace Cert.LeadFold

open Idealize.ShloMosaic Idealize.ShloMosaic.ValueIdx

variable {α : Type} {a b c g m n : ℕ}

/-- An [a, b, n] array recast as [m, n] (m = a · b): row p · b + q, column k holds the entry at (p, q, k), the two
    indices having one row-major position. -/
theorem shapeCast_abn_mn_apply (x : (⟨3, ![a, b, n]⟩ : Shape).Idx → α) (h : (⟨3, ![a, b, n]⟩ : Shape).ShapeCasts ⟨2, ![m, n]⟩)
    (r : Fin m) (k : Fin n) (p : Fin a) (q : Fin b) (hr : r.val = p.val * b + q.val) :
    shapeCast ⟨2, ![m, n]⟩ x h (ix2 r k) = x (ix3 p q k) :=
  shapeCast_apply x h _ _ (by
    rw [Shape.rowMajor_val_three, Shape.rowMajor_val_two]
    show (p.val * b + q.val) * n + k.val = r.val * n + k.val
    rw [hr])

/-- An [m, n] array recast as [a, b, n] (m = a · b): position (p, q, k) holds the entry at row p · b + q, column k. -/
theorem shapeCast_mn_abn_apply (x : (⟨2, ![m, n]⟩ : Shape).Idx → α) (h : (⟨2, ![m, n]⟩ : Shape).ShapeCasts ⟨3, ![a, b, n]⟩)
    (p : Fin a) (q : Fin b) (k : Fin n) (r : Fin m) (hr : r.val = p.val * b + q.val) :
    shapeCast ⟨3, ![a, b, n]⟩ x h (ix3 p q k) = x (ix2 r k) :=
  shapeCast_apply x h _ _ (by
    rw [Shape.rowMajor_val_two, Shape.rowMajor_val_three]
    show r.val * n + k.val = (p.val * b + q.val) * n + k.val
    rw [hr])

/-- An [a, b, p, q] array recast as [m, p, q] (m = a · b): position (u · b + v, i, k) holds the entry at (u, v, i, k). -/
theorem shapeCast_abpq_mpq_apply {p q : ℕ} (x : (⟨4, ![a, b, p, q]⟩ : Shape).Idx → α)
    (h : (⟨4, ![a, b, p, q]⟩ : Shape).ShapeCasts ⟨3, ![m, p, q]⟩)
    (r : Fin m) (i : Fin p) (k : Fin q) (u : Fin a) (v : Fin b) (hr : r.val = u.val * b + v.val) :
    shapeCast ⟨3, ![m, p, q]⟩ x h (ix3 r i k) = x (ix4 u v i k) :=
  shapeCast_apply x h _ _ (by
    rw [Shape.rowMajor_val_four, Shape.rowMajor_val_three]
    show ((u.val * b + v.val) * p + i.val) * q + k.val = (r.val * p + i.val) * q + k.val
    rw [hr])

/-- An [m, p, q] array recast as [a, b, p, q] (m = a · b): position (u, v, i, k) holds the entry at (u · b + v, i, k). -/
theorem shapeCast_mpq_abpq_apply {p q : ℕ} (x : (⟨3, ![m, p, q]⟩ : Shape).Idx → α)
    (h : (⟨3, ![m, p, q]⟩ : Shape).ShapeCasts ⟨4, ![a, b, p, q]⟩)
    (u : Fin a) (v : Fin b) (i : Fin p) (k : Fin q) (r : Fin m) (hr : r.val = u.val * b + v.val) :
    shapeCast ⟨4, ![a, b, p, q]⟩ x h (ix4 u v i k) = x (ix3 r i k) :=
  shapeCast_apply x h _ _ (by
    rw [Shape.rowMajor_val_three, Shape.rowMajor_val_four]
    show (r.val * p + i.val) * q + k.val = ((u.val * b + v.val) * p + i.val) * q + k.val
    rw [hr])

/-- The maximum of an [a, g, n] array along its last axis, at (p, gi): the fold of max, from the accumulator's value,
    over k of the array at (p, gi, k). -/
theorem lastMax3_apply {φ : FTy} (src : FVec Ideal ⟨3, ![a, g, n]⟩ φ) (acc : BitVec φ.bits)
    (h : (⟨3, ![a, g, n]⟩ : Shape).Reduces [2] ⟨2, ![a, g]⟩) (hφ : FKind.Formats φ) (hacc : acc = FKind.maximumf.neutral φ hφ)
    (p : Fin a) (gi : Fin g) :
    multiReduction .maximumf [2] ⟨2, ![a, g]⟩ src acc h hφ hacc (ix2 p gi)
      = (Finset.univ : Finset (Fin n)).fold max (FloatOps.ofBits φ acc) (fun k => src (ix3 p gi k)) := by
  refine (Ideal.multiReduction_maximumf_single src acc h hφ hacc (ix2 p gi)).trans ?_
  refine congrArg (fun f : Fin n → Ideal φ => (Finset.univ : Finset (Fin n)).fold max (FloatOps.ofBits φ acc) f)
    (funext fun k => congrArg src (funext fun d => Fin.ext ?_))
  rw [h.lift_val]
  match d with
  | ⟨0, _⟩ => rfl
  | ⟨1, _⟩ => rfl
  | ⟨2, _⟩ => rfl

/-- The host's reduce with a maximum body along the last axis of an [a, b, c, n] array, at (p, q, r): the fold of max,
    from the initial value, over k of the array at (p, q, r, k). -/
theorem hostLastMax4_apply {φ : FTy} {u : Shape} (x : FVec Ideal ⟨4, ![a, b, c, n]⟩ φ) (init : FVec Ideal u φ)
    (h' : (⟨4, ![a, b, c, n]⟩ : Shape).ReducesTo [3] ⟨3, ![a, b, c]⟩) (h : (⟨4, ![a, b, c, n]⟩ : Shape).Reduces [3] ⟨3, ![a, b, c]⟩)
    (hu : 0 < u.numel) (p : Fin a) (q : Fin b) (r : Fin c) :
    Host.reduce FloatOps.maximumf x init h' hu (ix3 p q r)
      = (Finset.univ : Finset (Fin n)).fold max (init (Shape.Idx.first hu)) (fun k => x (ix4 p q r k)) := by
  rw [Host.reduce_eq_fold_single FloatOps.maximumf x init h' h hu]
  refine congrArg (fun f : Fin n → Ideal φ => (Finset.univ : Finset (Fin n)).fold max (init (Shape.Idx.first hu)) f)
    (funext fun k => congrArg x (funext fun d => Fin.ext ?_))
  rw [h.lift_val]
  match d with
  | ⟨0, _⟩ => rfl
  | ⟨1, _⟩ => rfl
  | ⟨2, _⟩ => rfl
  | ⟨3, _⟩ => rfl

/-- A vector of length n recast as [1, 1, n] reads, at (u, v, k), the vector at k, whatever the unit coordinates. -/
theorem shapeCast_n_11n_apply (x : (⟨1, ![n]⟩ : Shape).Idx → α) (h : (⟨1, ![n]⟩ : Shape).ShapeCasts ⟨3, ![1, 1, n]⟩)
    (u v : Fin 1) (k : Fin n) : shapeCast ⟨3, ![1, 1, n]⟩ x h (ix3 u v k) = x (ix1 k) :=
  shapeCast_apply x h _ _ (by
    have hu : u.val = 0 := by omega
    have hv : v.val = 0 := by omega
    rw [Shape.rowMajor_val_one, Shape.rowMajor_val_three]
    show k.val = (u.val * 1 + v.val) * n + k.val
    simp [hu, hv])

/-- A [1, 1, n] array repeated over [a, b, n] reads, at (p, q, k), the array at (0, 0, k). -/
theorem broadcastTo_11n_abn_apply (x : (⟨3, ![1, 1, n]⟩ : Shape).Idx → α) (h : (⟨3, ![1, 1, n]⟩ : Shape).Broadcasts ⟨3, ![a, b, n]⟩)
    (p : Fin a) (q : Fin b) (k : Fin n) :
    broadcastTo ⟨3, ![a, b, n]⟩ x h (ix3 p q k) = x (ix3 (0 : Fin 1) (0 : Fin 1) k) := by
  refine broadcastTo_apply x h (ix3 p q k) (ix3 (0 : Fin 1) (0 : Fin 1) k) fun ax => ?_
  match ax with
  | ⟨0, _⟩ => rfl
  | ⟨1, _⟩ => rfl
  | ⟨2, _⟩ =>
    show k.val = if n = 1 then 0 else k.val
    split
    · have := k.isLt; omega
    · rfl

end Cert.LeadFold

end
-- ==== Proof.LibLeadRow.lean ====
/-
  A layout operation read at an index, generic in the sizes: a [1, b, c] array repeated along its leading unit axis to
  [a, b, c], and with it `v[None, :, :]` of a [b, c] matrix broadcast against an [a, b, c] array: position (p, q, k)
  holds v(q, k) for every p.
-/
import Idealize.ShloMosaic.Lib.ValueIdx
import Idealize.ShloMosaic.Lib.ValueLayout
import Idealize.ShloMosaic.Lib.Pipeline.Value

namespace Cert.LeadRow

open Idealize.ShloMosaic Idealize.ShloMosaic.ValueIdx

variable {α : Type} {a b c : ℕ}

/-- A [1, b, c] array repeated along its unit axis to [a, b, c]: position (p, q, k) holds the entry at (0, q, k). -/
theorem broadcastTo_1bc_abc_apply (v : (⟨3, ![1, b, c]⟩ : Shape).Idx → α) (h : (⟨3, ![1, b, c]⟩ : Shape).Broadcasts ⟨3, ![a, b, c]⟩)
    (p : Fin a) (q : Fin b) (k : Fin c) :
    broadcastTo ⟨3, ![a, b, c]⟩ v h (ix3 p q k) = v (ix3 (0 : Fin 1) q k) := by
  refine broadcastTo_apply v h (ix3 p q k) (ix3 (0 : Fin 1) q k) fun ax => ?_
  match ax with
  | ⟨0, _⟩ => rfl
  | ⟨1, _⟩ =>
    show q.val = if b = 1 then 0 else q.val
    split
    · have := q.isLt; omega
    · rfl
  | ⟨2, _⟩ =>
    show k.val = if c = 1 then 0 else k.val
    split
    · have := k.isLt; omega
    · rfl

/-- A [b, c] matrix given a leading unit axis and repeated along it: position (p, q, k) holds the entry at (q, k). -/
theorem keepLead_apply (x : (⟨2, ![b, c]⟩ : Shape).Idx → α) (hc : (⟨2, ![b, c]⟩ : Shape).ShapeCasts ⟨3, ![1, b, c]⟩)
    (hb : (⟨3, ![1, b, c]⟩ : Shape).Broadcasts ⟨3, ![a, b, c]⟩) (p : Fin a) (q : Fin b) (k : Fin c) :
    broadcastTo ⟨3, ![a, b, c]⟩ (shapeCast ⟨3, ![1, b, c]⟩ x hc) hb (ix3 p q k) = x (ix2 q k) :=
  (broadcastTo_1bc_abc_apply _ hb p q k).trans (shapeCast_ab_1ab_apply x hc 0 q k)

end Cert.LeadRow
-- ==== Proof.Payload.lean ====
/-
  The kernel body's value at an index.

  At a grid point the body holds a block of 128 "i" rows and a block of 64 "j" rows of the node features. It projects
  each block by both halves of the first weights (four matrix products, the weights transposed in the body), forms for
  every pair (p, q) of the tile the two pre-activations source(p) + destination(q) + bias and destination(p) + source(q)
  + bias, passes both through x · σ(x) and the second layer (the tile flattened to 8192 rows for the product and cut
  back), and stores the mean. Read at (p, q, c) of the tile this is the symmetrized score of the two rows.
-/
import proofs.«157453_j2911987827332_1_alg».proof.Proof.Gen.KernelIdeal.Skeleton
import proofs.«157453_j2911987827332_1_alg».proof.Proof.Spec
import proofs.«157453_j2911987827332_1_alg».proof.Proof.LibPlainLayers
import proofs.«157453_j2911987827332_1_alg».proof.Proof.LibMidAxis
import proofs.«157453_j2911987827332_1_alg».proof.Proof.LibLeadFold
import proofs.«157453_j2911987827332_1_alg».proof.Proof.LibLeadRow
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Cert.PairSpec
open Idealize.ShloMosaic Idealize.ShloMosaic.ValueIdx

/-! ## The loaded blocks, recast -/

/-- The "i" block as a matrix: row p, column d. -/
theorem pay2_apply (x0 : Vec Ideal S1x128x128 .f32) (p d : Fin 128) :
    k0_pay2 (F := Ideal) x0 (ix2 p d) = x0 (ix3 (0 : Fin 1) p d) := by
  unfold k0_pay2
  exact shapeCast_1ab_ab_apply x0 _ p d

/-- The "j" block as a matrix. -/
theorem pay3_apply (x1 : Vec Ideal S1x64x128 .f32) (q : Fin 64) (d : Fin 128) :
    k0_pay3 (F := Ideal) x1 (ix2 q d) = x1 (ix3 (0 : Fin 1) q d) := by
  unfold k0_pay3
  exact shapeCast_1ab_ab_apply x1 _ q d

/-- The first half of the first weights: row h, column d. -/
theorem pay4_apply (x2 : Vec Ideal S128x256 .f32) (h d : Fin 128) :
    k0_pay4 (F := Ideal) x2 (ix2 h d) = x2 (ix2 h (lo d)) := by
  unfold k0_pay4
  exact slice2_axis1_apply 0 x2 slices_S128x256_o0_0_S128x128 h d (lo d) (Nat.zero_add _).symm

/-- The second half. -/
theorem pay5_apply (x2 : Vec Ideal S128x256 .f32) (h d : Fin 128) :
    k0_pay5 (F := Ideal) x2 (ix2 h d) = x2 (ix2 h (hi d)) := by
  unfold k0_pay5
  exact slice2_axis1_apply 128 x2 slices_S128x256_o0_128_S128x128 h d (hi d) rfl

/-! ## The four projections -/

/-- Rows of the "i" block against the transposed second half: the destination projection of row p. -/
theorem pay7_apply (x0 : Vec Ideal S1x128x128 .f32) (x2 : Vec Ideal S128x256 .f32) (p h : Fin 128) :
    k0_pay7 (F := Ideal) x0 x2 (ix2 p h) = dstRow (fun d => x0 (ix3 (0 : Fin 1) p d)) x2 h := by
  unfold k0_pay7
  refine (Cert.PlainLayers.plainMM_of_eq _ rfl none _ _ p h).trans ?_
  unfold dstRow
  refine Finset.sum_congr rfl fun d _ => ?_
  rw [pay2_apply, transpose_ix2_apply, pay5_apply]

/-- Rows of the "j" block against the transposed first half: the source projection of row q. -/
theorem pay8_apply (x1 : Vec Ideal S1x64x128 .f32) (x2 : Vec Ideal S128x256 .f32) (q : Fin 64) (h : Fin 128) :
    k0_pay8 (F := Ideal) x1 x2 (ix2 q h) = srcRow (fun d => x1 (ix3 (0 : Fin 1) q d)) x2 h := by
  unfold k0_pay8
  refine (Cert.PlainLayers.plainMM_of_eq _ rfl none _ _ q h).trans ?_
  unfold srcRow
  refine Finset.sum_congr rfl fun d _ => ?_
  rw [pay3_apply, transpose_ix2_apply, pay4_apply]

/-- The source projection of row p of the "i" block, as the body spells it. -/
theorem srcI_apply (x0 : Vec Ideal S1x128x128 .f32) (x2 : Vec Ideal S128x256 .f32) (ht : S128x128.Transposes [1, 0] S128x128)
    (D : DotDims S128x128 S128x128 S128x128) (hD : D = DotDims.plain 128 128 128) (p h : Fin 128) :
    matmul D none (k0_pay2 (F := Ideal) x0) (transpose S128x128 [1, 0] (k0_pay4 (F := Ideal) x2) ht) (constant S128x128 .f32 0x00000000#32) (ix2 p h)
      = srcRow (fun d => x0 (ix3 (0 : Fin 1) p d)) x2 h := by
  refine (Cert.PlainLayers.plainMM_of_eq D hD none _ _ p h).trans ?_
  unfold srcRow
  refine Finset.sum_congr rfl fun d _ => ?_
  rw [pay2_apply, transpose_ix2_apply, pay4_apply]

/-- The destination projection of row q of the "j" block, as the body spells it. -/
theorem dstJ_apply (x1 : Vec Ideal S1x64x128 .f32) (x2 : Vec Ideal S128x256 .f32) (ht : S128x128.Transposes [1, 0] S128x128)
    (D : DotDims S64x128 S128x128 S64x128) (hD : D = DotDims.plain 64 128 128) (q : Fin 64) (h : Fin 128) :
    matmul D none (k0_pay3 (F := Ideal) x1) (transpose S128x128 [1, 0] (k0_pay5 (F := Ideal) x2) ht) (constant S64x128 .f32 0x00000000#32) (ix2 q h)
      = dstRow (fun d => x1 (ix3 (0 : Fin 1) q d)) x2 h := by
  refine (Cert.PlainLayers.plainMM_of_eq D hD none _ _ q h).trans ?_
  unfold dstRow
  refine Finset.sum_congr rfl fun d _ => ?_
  rw [pay3_apply, transpose_ix2_apply, pay5_apply]

/-! ## A pre-activation tile and the second layer on it -/

/-- A [128, 128] array spread over the tile's "j" axis, a [64, 128] array over its "i" axis and a bias vector over both,
    added: at (p, q, h) the sum of the three entries. -/
theorem pre_apply (A : FVec Ideal S128x128 .f32) (B : FVec Ideal S64x128 .f32) (b1 : Vec Ideal S128 .f32)
    (h1 : S128x128.ShapeCasts S128x1x128) (h2 : S64x128.ShapeCasts S1x64x128) (h3 : S128x1x128.Broadcasts S128x64x128)
    (h4 : S1x64x128.Broadcasts S128x64x128) (h5 : S128.ShapeCasts S1x1x128) (h6 : S1x1x128.Broadcasts S128x64x128)
    (p : Fin 128) (q : Fin 64) (h : Fin 128) :
    addf (addf (broadcastTo S128x64x128 (shapeCast S128x1x128 A h1) h3) (broadcastTo S128x64x128 (shapeCast S1x64x128 B h2) h4))
      (broadcastTo S128x64x128 (shapeCast S1x1x128 b1 h5) h6) (ix3 p q h) = A (ix2 p h) + B (ix2 q h) + b1 (ix1 h) := by
  show broadcastTo S128x64x128 (shapeCast S128x1x128 A h1) h3 (ix3 p q h) + broadcastTo S128x64x128 (shapeCast S1x64x128 B h2) h4 (ix3 p q h)
    + broadcastTo S128x64x128 (shapeCast S1x1x128 b1 h5) h6 (ix3 p q h) = _
  rw [Cert.MidAxis.keepMid_apply A h1 h3 p q h, Cert.LeadRow.keepLead_apply B h2 h4 p q h,
    Cert.LeadFold.broadcastTo_11n_abn_apply _ h6 p q h, Cert.LeadFold.shapeCast_n_11n_apply b1 h5 0 0 h]

/-- The second layer on a pre-activation tile `V` whose entries at pair (p, q) are `u`: the tile through x · σ(x),
    flattened to 8192 rows, against the transposed second weights, plus the second bias; at row 64 p + q, column c, the
    head of `u`. -/
theorem layer_apply (V : FVec Ideal S128x64x128 .f32) (u : Fin 128 → EReal) (p : Fin 128) (q : Fin 64) (r : Fin 8192)
    (hr : r.val = p.val * 64 + q.val) (hV : ∀ h, V (ix3 p q h) = u h) (w2 : FVec Ideal S3x128 .bf16) (b2 : Vec Ideal S3 .f32)
    (h7 : S128x64x128.ShapeCasts S8192x128) (h8 : FTy.bits .bf16 < FTy.bits .f32) (h9 : S3x128.Transposes [1, 0] S128x3)
    (h10 : S3.ShapeCasts S1x3) (h11 : S1x3.Broadcasts S8192x3) (D : DotDims S8192x128 S128x3 S8192x3) (hD : D = DotDims.plain 8192 128 3)
    (c : Fin 3) :
    addf (matmul D none (truncf .bf16 (shapeCast S8192x128 (mulf V (logistic V)) h7) h8) (transpose S128x3 [1, 0] w2 h9) (constant S8192x3 .f32 0x00000000#32))
      (broadcastTo S8192x3 (shapeCast S1x3 b2 h10) h11) (ix2 r c) = head u w2 b2 c := by
  show matmul D none (truncf .bf16 (shapeCast S8192x128 (mulf V (logistic V)) h7) h8) (transpose S128x3 [1, 0] w2 h9) (constant S8192x3 .f32 0x00000000#32) (ix2 r c)
    + broadcastTo S8192x3 (shapeCast S1x3 b2 h10) h11 (ix2 r c) = _
  unfold head
  refine (congrArg₂ (· + ·) (Cert.PlainLayers.plainMM_of_eq D hD none _ _ r c)
    ((broadcastTo_1b_ab_apply _ h11 r c).trans (shapeCast_a_1a_apply b2 h10 0 c))).trans ?_
  refine congrArg (· + b2 (ix1 c)) (Finset.sum_congr rfl fun k _ => ?_)
  rw [transpose_ix2_apply w2 h9 k c]
  refine congrArg (· * w2 (ix2 c k)) ?_
  show shapeCast S8192x128 (mulf V (logistic V)) h7 (ix2 r k) = _
  rw [Cert.LeadFold.shapeCast_abn_mn_apply _ h7 r k p q hr]
  show V (ix3 p q k) * Ideal.logistic (V (ix3 p q k)) = _
  rw [hV]
  rfl

/-! ## The two halves of the stored value -/

/-- The first scores (source of the "i" row, destination of the "j" row), at flattened row 64 p + q. -/
theorem pay9_apply (x0 : Vec Ideal S1x128x128 .f32) (x1 : Vec Ideal S1x64x128 .f32) (x2 : Vec Ideal S128x256 .f32) (x3 : Vec Ideal S128 .f32)
    (x4 : Vec Ideal S3x128 .f32) (x5 : Vec Ideal S3 .f32) (p : Fin 128) (q : Fin 64) (r : Fin 8192) (hr : r.val = p.val * 64 + q.val) (c : Fin 3) :
    k0_pay9 (F := Ideal) x0 x1 x2 x3 x4 x5 (ix2 r c)
      = head (fun h => srcRow (fun d => x0 (ix3 (0 : Fin 1) p d)) x2 h + dstRow (fun d => x1 (ix3 (0 : Fin 1) q d)) x2 h + x3 (ix1 h)) x4 x5 c := by
  unfold k0_pay9
  refine (layer_apply _ _ p q r hr (fun h => ?_) (k0_pay6 (F := Ideal) x4) x5 _ _ _ _ _ _ rfl c).trans rfl
  refine (pre_apply _ _ x3 _ _ _ _ _ _ p q h).trans ?_
  rw [srcI_apply x0 x2 transposes_S128x128_p1_0_S128x128 dot_S128x128_S128x128_S128x128_1_0_0_1_n_n rfl p h,
    dstJ_apply x1 x2 transposes_S128x128_p1_0_S128x128 dot_S64x128_S128x128_S64x128_1_0_0_1_n_n rfl q h]

/-- The stored value at (p, q, c) of the tile, from the first scores `v39` and the two other projections `v18`, `v20`: the
    mean of the first scores and of the second layer on destination(p) + source(q) + bias. -/
theorem pay1_apply (v11 : Vec Ideal S128 .f32) (v13 : FVec Ideal S3x128 .bf16) (v14 : Vec Ideal S3 .f32) (v18 : FVec Ideal S128x128 .f32)
    (v20 : FVec Ideal S64x128 .f32) (v39 : FVec Ideal S8192x3 .f32) (p : Fin 128) (q : Fin 64) (r : Fin 8192) (hr : r.val = p.val * 64 + q.val) (c : Fin 3) :
    k0_pay1 (F := Ideal) v11 v13 v14 v18 v20 v39 (ix4 (0 : Fin 1) p q c)
      = (v39 (ix2 r c) + head (fun h => v18 (ix2 p h) + v20 (ix2 q h) + v11 (ix1 h)) v13 v14 c) * half := by
  unfold k0_pay1
  refine (shapeCast_abc_1abc_apply _ _ 0 p q c).trans ?_
  refine congrArg₂ (· * ·) (congrArg₂ (· + ·) ?_ ?_) rfl
  · exact Cert.LeadFold.shapeCast_mn_abn_apply v39 _ p q c r hr
  · refine (Cert.LeadFold.shapeCast_mn_abn_apply _ _ p q c r hr).trans ?_
    exact layer_apply _ _ p q r hr (fun h => pre_apply v18 v20 v11 _ _ _ _ _ _ p q h) v13 v14 _ _ _ _ _ _ rfl c

/-- The body's stored value from its six loaded blocks, at (p, q, c) of the tile: the symmetrized score of row p of the
    "i" block and row q of the "j" block. -/
theorem stored_apply (x0 : Vec Ideal S1x128x128 .f32) (x1 : Vec Ideal S1x64x128 .f32) (x2 : Vec Ideal S128x256 .f32) (x3 : Vec Ideal S128 .f32)
    (x4 : Vec Ideal S3x128 .f32) (x5 : Vec Ideal S3 .f32) (p : Fin 128) (q : Fin 64) (c : Fin 3) :
    k0_pay1 (F := Ideal) x3 (k0_pay6 (F := Ideal) x4) x5 (k0_pay7 (F := Ideal) x0 x2) (k0_pay8 (F := Ideal) x1 x2) (k0_pay9 (F := Ideal) x0 x1 x2 x3 x4 x5) (ix4 (0 : Fin 1) p q c)
      = pairScore (fun d => x0 (ix3 (0 : Fin 1) p d)) (fun d => x1 (ix3 (0 : Fin 1) q d)) x2 x3 x4 x5 c := by
  have hr : (⟨p.val * 64 + q.val, by have := p.isLt; have := q.isLt; omega⟩ : Fin 8192).val = p.val * 64 + q.val := rfl
  rw [pay1_apply _ _ _ _ _ _ p q _ hr c, pay9_apply x0 x1 x2 x3 x4 x5 p q _ hr c]
  unfold pairScore
  simp only [pay7_apply, pay8_apply]
  rfl

end Cert.KernelIdeal.Pay

end
-- ==== Proof.KValue.lean ====
/-
  The output array after the kernel's run is the pair-scoring head of the argument arrays.

  Grid point (b, I, J) holds rows 128 I … 128 I + 127 of batch element b as its "i" block and rows 64 J … 64 J + 63 as
  its "j" block, the four parameter arrays whole, and writes tile (b, I, J) of the output. What it writes at (p, q, c) of
  the tile is the symmetrized score of rows 128 I + p and 64 J + q, which is entry (b, 128 I + p, 64 J + q, c) of the head:
  the tile written is the head's block. The 128 tiles cover the output array, so the array ends holding the head.
-/
import proofs.«157453_j2911987827332_1_alg».proof.Proof.RunIdeal
import proofs.«157453_j2911987827332_1_alg».proof.Proof.Payload
import proofs.«157453_j2911987827332_1_alg».proof.Proof.Spec
import Idealize.ShloMosaic.Lib.Pipeline.Value

set_option maxRecDepth 16384

noncomputable section

namespace Cert.KernelIdeal.Hand

open Cert.KernelIdeal Cert.KernelIdeal.Gen Cert.PairSpec
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The buffer the body leaves, at (p, q, c) of the tile: the symmetrized score of row p of the "i" block and row q of the
    "j" block. -/
theorem out6_apply (x0 : Vec Ideal S1x128x128 .f32) (x1 : Vec Ideal S1x64x128 .f32) (x2 : Vec Ideal S128x256 .f32) (x3 : Vec Ideal S128 .f32)
    (x4 : Vec Ideal S3x128 .f32) (x5 : Vec Ideal S3 .f32) (p : Fin 128) (q : Fin 64) (c : Fin 3) :
    out6 (F := Ideal) x0 x1 x2 x3 x4 x5 (ix4 (0 : Fin 1) p q c)
      = pairScore (fun d => x0 (ix3 (0 : Fin 1) p d)) (fun d => x1 (ix3 (0 : Fin 1) q d)) x2 x3 x4 x5 c := by
  unfold out6
  rw [View.canon_unit_zero hz4]
  simp only [View.ld_unit_zero (S := S1x128x128) hz3, View.ld_unit_zero (S := S1x64x128) hz3, View.ld_unit_zero (S := S128x256) hz2,
    View.ld_unit_zero (S := S128) hz1, View.ld_unit_zero (S := S3x128) hz2, View.ld_unit_zero (S := S3) hz1]
  exact Pay.stored_apply x0 x1 x2 x3 x4 x5 p q c

/-- The printed index maps, decided over the grid: the "i" window moves with the output tile's second axis, the "j"
    window with its third, both with its first; the parameter windows and the tile's last axis do not move. -/
theorem idx_facts : ∀ t : Fin cfg0.N,
    win0_0.index t (0 : Fin 3) = win0_6.index t (0 : Fin 4) ∧ win0_0.index t (1 : Fin 3) = win0_6.index t (1 : Fin 4) ∧ win0_0.index t (2 : Fin 3) = 0
    ∧ win0_1.index t (0 : Fin 3) = win0_6.index t (0 : Fin 4) ∧ win0_1.index t (1 : Fin 3) = win0_6.index t (2 : Fin 4) ∧ win0_1.index t (2 : Fin 3) = 0
    ∧ win0_2.index t (0 : Fin 2) = 0 ∧ win0_2.index t (1 : Fin 2) = 0 ∧ win0_3.index t (0 : Fin 1) = 0
    ∧ win0_4.index t (0 : Fin 2) = 0 ∧ win0_4.index t (1 : Fin 2) = 0 ∧ win0_5.index t (0 : Fin 1) = 0
    ∧ win0_6.index t (3 : Fin 4) = 0 :=
  (by decide +kernel : ∀ t : Fin grid0.N, _)

/-- Every tile of the output is some point's. -/
theorem idx_onto : ∀ (q0 : Fin 4) (q1 : Fin 4) (q2 : Fin 8), ∃ t : Fin cfg0.N, win0_6.index t = ![q0.val, q1.val, q2.val, 0] :=
  (by decide +kernel : ∀ (q0 : Fin 4) (q1 : Fin 4) (q2 : Fin 8), ∃ t : Fin grid0.N, win0_6.index t = ![q0.val, q1.val, q2.val, 0])

/-- What point `t` writes back is block `t` of the head of the argument arrays. -/
theorem flushed_eq (c : Dev nD) (t : Fin cfg0.N) :
    (dats m 0 c).flushed 6 t = ((cfg0.win 6).blk t).view.read (Elt Ideal)
      (G (V m c main_arg0) (V m c main_arg1) (V m c main_arg2) (V m c main_arg3) (V m c main_arg4)) := by
  show (cfg0.win 6).cut (grid0.coords t) ((dats m 0 c).after 6 t) = _
  rw [after6]
  obtain ⟨e00, e01, e02, e10, e11, e12, e20, e21, e30, e40, e41, e50, e63⟩ := idx_facts t
  funext y
  obtain ⟨u, p, q, cc, rfl⟩ : ∃ (u : Fin 1) (p : Fin 128) (q : Fin 64) (cc : Fin 3), y = ix4 u p q cc := ⟨y 0, y 1, y 2, y 3, eq_ix4 y⟩
  obtain rfl : u = 0 := Subsingleton.elim _ _
  show out6 (iblk m c 0 t) (iblk m c 1 t) (iblk m c 2 t) (iblk m c 3 t) (iblk m c 4 t) (iblk m c 5 t) (ix4 (0 : Fin 1) p q cc)
    = G (V m c main_arg0) (V m c main_arg1) (V m c main_arg2) (V m c main_arg3) (V m c main_arg4) (((cfg0.win 6).blk t).view.emb (ix4 (0 : Fin 1) p q cc))
  rw [out6_apply]
  have h2 : iblk m c 2 t = V m c main_arg1 := funext fun i => by
    show V m c main_arg1 (((cfg0.win 2).blk t).view.emb i) = V m c main_arg1 i
    refine congrArg (V m c main_arg1) (funext fun a => Fin.ext ?_)
    match a with
    | ⟨0, _⟩ => show win0_2.index t (0 : Fin 2) * 128 + 1 * (i 0).val = (i 0).val; omega
    | ⟨1, _⟩ => show win0_2.index t (1 : Fin 2) * 256 + 1 * (i 1).val = (i 1).val; omega
  have h3 : iblk m c 3 t = V m c main_arg2 := funext fun i => by
    show V m c main_arg2 (((cfg0.win 3).blk t).view.emb i) = V m c main_arg2 i
    refine congrArg (V m c main_arg2) (funext fun a => Fin.ext ?_)
    match a with
    | ⟨0, _⟩ => show win0_3.index t (0 : Fin 1) * 128 + 1 * (i 0).val = (i 0).val; omega
  have h4 : iblk m c 4 t = V m c main_arg3 := funext fun i => by
    show V m c main_arg3 (((cfg0.win 4).blk t).view.emb i) = V m c main_arg3 i
    refine congrArg (V m c main_arg3) (funext fun a => Fin.ext ?_)
    match a with
    | ⟨0, _⟩ => show win0_4.index t (0 : Fin 2) * 3 + 1 * (i 0).val = (i 0).val; omega
    | ⟨1, _⟩ => show win0_4.index t (1 : Fin 2) * 128 + 1 * (i 1).val = (i 1).val; omega
  have h5 : iblk m c 5 t = V m c main_arg4 := funext fun i => by
    show V m c main_arg4 (((cfg0.win 5).blk t).view.emb i) = V m c main_arg4 i
    refine congrArg (V m c main_arg4) (funext fun a => Fin.ext ?_)
    match a with
    | ⟨0, _⟩ => show win0_5.index t (0 : Fin 1) * 3 + 1 * (i 0).val = (i 0).val; omega
  have h0 : (fun d => iblk m c 0 t (ix3 (0 : Fin 1) p d))
      = row (V m c main_arg0) (((cfg0.win 6).blk t).view.emb (ix4 (0 : Fin 1) p q cc) 0) (((cfg0.win 6).blk t).view.emb (ix4 (0 : Fin 1) p q cc) 1) := funext fun d => by
    show V m c main_arg0 (((cfg0.win 0).blk t).view.emb (ix3 (0 : Fin 1) p d)) = V m c main_arg0 (ix3 _ _ d)
    refine congrArg (V m c main_arg0) (funext fun a => Fin.ext ?_)
    match a with
    | ⟨0, _⟩ => show win0_0.index t (0 : Fin 3) * 1 + 1 * 0 = win0_6.index t (0 : Fin 4) * 1 + 1 * 0; omega
    | ⟨1, _⟩ => show win0_0.index t (1 : Fin 3) * 128 + 1 * p.val = win0_6.index t (1 : Fin 4) * 128 + 1 * p.val; omega
    | ⟨2, _⟩ => show win0_0.index t (2 : Fin 3) * 128 + 1 * d.val = d.val; omega
  have h1 : (fun d => iblk m c 1 t (ix3 (0 : Fin 1) q d))
      = row (V m c main_arg0) (((cfg0.win 6).blk t).view.emb (ix4 (0 : Fin 1) p q cc) 0) (((cfg0.win 6).blk t).view.emb (ix4 (0 : Fin 1) p q cc) 2) := funext fun d => by
    show V m c main_arg0 (((cfg0.win 1).blk t).view.emb (ix3 (0 : Fin 1) q d)) = V m c main_arg0 (ix3 _ _ d)
    refine congrArg (V m c main_arg0) (funext fun a => Fin.ext ?_)
    match a with
    | ⟨0, _⟩ => show win0_1.index t (0 : Fin 3) * 1 + 1 * 0 = win0_6.index t (0 : Fin 4) * 1 + 1 * 0; omega
    | ⟨1, _⟩ => show win0_1.index t (1 : Fin 3) * 64 + 1 * q.val = win0_6.index t (2 : Fin 4) * 64 + 1 * q.val; omega
    | ⟨2, _⟩ => show win0_1.index t (2 : Fin 3) * 128 + 1 * d.val = d.val; omega
  have h6 : ((cfg0.win 6).blk t).view.emb (ix4 (0 : Fin 1) p q cc) 3 = cc := Fin.ext (by
    show win0_6.index t (3 : Fin 4) * 3 + 1 * cc.val = cc.val; omega)
  rw [h0, h1, h2, h3, h4, h5]
  show _ = pairScore _ _ _ _ _ _ (((cfg0.win 6).blk t).view.emb (ix4 (0 : Fin 1) p q cc) 3)
  rw [h6]

/-- An index of the output array is in point `t`'s tile iff each coordinate is in the tile's range on its axis. -/
theorem mem_blk (t : Fin cfg0.N) (i : S4x512x512x3.Idx) :
    i ∈ ((cfg0.win 6).blk t).view.set ↔ ∀ a : Fin 4, win0_6.index t a * S1x128x64x3.size a ≤ (i a).val ∧ (i a).val < win0_6.index t a * S1x128x64x3.size a + S1x128x64x3.size a := by
  show i ∈ ((View.whole main_v0).slice (win0_6.rect t)).set ↔ _
  rw [View.set_slice_whole, Rect.mem_set_unit]
  exact Iff.rfl

/-- The tiles cover the output array: entry (b, i, j, c) lies in the tile of point (b, i / 128, j / 64). -/
theorem cover (i : S4x512x512x3.Idx) : ∃ t : Fin cfg0.N, (cfg0.win 6).flush t = true ∧ i ∈ ((cfg0.win 6).blk t).view.set := by
  have hi0 : (i 0).val < 4 := (i 0).isLt
  have hi1 : (i 1).val < 512 := (i 1).isLt
  have hi2 : (i 2).val < 512 := (i 2).isLt
  have hi3 : (i 3).val < 3 := (i 3).isLt
  obtain ⟨t, ht⟩ := idx_onto ⟨(i 0).val, hi0⟩ ⟨(i 1).val / 128, by omega⟩ ⟨(i 2).val / 64, by omega⟩
  have q0 : win0_6.index t (0 : Fin 4) = (i 0).val := congrFun ht 0
  have q1 : win0_6.index t (1 : Fin 4) = (i 1).val / 128 := congrFun ht 1
  have q2 : win0_6.index t (2 : Fin 4) = (i 2).val / 64 := congrFun ht 2
  have q3 : win0_6.index t (3 : Fin 4) = 0 := congrFun ht 3
  refine ⟨t, flush0_6 t, ?_⟩
  rw [mem_blk]
  intro a
  match a with
  | ⟨0, _⟩ => show win0_6.index t (0 : Fin 4) * 1 ≤ (i 0).val ∧ (i 0).val < win0_6.index t (0 : Fin 4) * 1 + 1; omega
  | ⟨1, _⟩ => show win0_6.index t (1 : Fin 4) * 128 ≤ (i 1).val ∧ (i 1).val < win0_6.index t (1 : Fin 4) * 128 + 128; omega
  | ⟨2, _⟩ => show win0_6.index t (2 : Fin 4) * 64 ≤ (i 2).val ∧ (i 2).val < win0_6.index t (2 : Fin 4) * 64 + 64; omega
  | ⟨3, _⟩ => show win0_6.index t (3 : Fin 4) * 3 ≤ (i 3).val ∧ (i 3).val < win0_6.index t (3 : Fin 4) * 3 + 3; omega

/-- The output array after the run: the head of the argument arrays. -/
theorem final (c : Dev nD) : (dats m 0 c).arrAt 6 cfg0.N
    = G (m ((c : Thread nD τ).loc main_arg0)) (m ((c : Thread nD τ).loc main_arg1)) (m ((c : Thread nD τ).loc main_arg2))
        (m ((c : Thread nD τ).loc main_arg3)) (m ((c : Thread nD τ).loc main_arg4)) :=
  (dats m 0 c).arrAt_eq_of_cover 6 _ (fun t _ => flushed_eq m c t) cover

/-- The run, read: the output array at the head of the arguments, the arguments unchanged. -/
theorem run : θ_run defs (onTc (τ := τ) (main (F := Ideal))) ⟨m, fun _ => 0, ρ⟩ fun r => ∀ c : Dev nD,
      r.2.mem ((c.tc : Thread nD τ).loc main_v0) = G (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h c).1 6).trans (final m c),
      ((h c).1 0).trans (((dats m 0 c).arrAt_in 0 rfl _).trans (A_eq m c 0)),
      ((h c).1 2).trans (((dats m 0 c).arrAt_in 2 rfl _).trans (A_eq m c 2)),
      ((h c).1 3).trans (((dats m 0 c).arrAt_in 3 rfl _).trans (A_eq m c 3)),
      ((h c).1 4).trans (((dats m 0 c).arrAt_in 4 rfl _).trans (A_eq m c 4)),
      ((h c).1 5).trans (((dats m 0 c).arrAt_in 5 rfl _).trans (A_eq m c 5))⟩) (run_main m ρ)

end Cert.KernelIdeal.Hand

end
-- ==== Proof.LibLogistic.lean ====
/-
  General lemmas about the logistic function on the extended reals, for programs that spell it out.

  * `one_word`: the single-precision word 0x3F800000 (the literal 1.0) denotes the real 1.
  * `logistic_spelt`: the quotient 1 / (1 + e^(−r)), with both ones given by that word, the quotient the extended reals'
    total one and the exponential the exact one, is the logistic function of r — for every extended real r, the two
    infinities included, since the logistic function is defined there as exactly this quotient.
-/
import Idealize.ShloMosaic.PureOps.Ideal

noncomputable section

namespace Cert.Logistic

open Idealize.ShloMosaic

/-- The single-precision word of 1.0 denotes the real 1. -/
theorem one_word : Ideal.ofBits .f32 0x3F800000#32 = 1 := by
  simp [Ideal.ofBits, Ideal.ieee, -EReal.coe_mul]; norm_num

/-- 1 / (1 + e^(−r)) with both ones given by their word is the logistic function of r. -/
theorem logistic_spelt (r : EReal) :
    Ideal.div (Ideal.ofBits .f32 0x3F800000#32) (Ideal.ofBits .f32 0x3F800000#32 + Ideal.exp (-r)) = Ideal.logistic r := by
  rw [one_word]; rfl

end Cert.Logistic

end
-- ==== Proof.RefValue.lean ====
/-
  The reference computes the pair-scoring head.

  The reference's run is read one operation at a time: the two projections of every node (two contractions of the
  node features against the two halves of the first weights), their sum over all pairs with the first bias, the
  activation x · σ(x) spelt as x · (1 / (1 + e^(−x))), the second layer, and the mean of the score array with
  its transpose over the two node axes. Entry (b, i, j, c) of the transposed array is entry (b, j, i, c), whose
  pre-activation is source(j) + destination(i); the head is stated with destination(i) + source(j), and the two
  agree because addition is commutative.
-/
import proofs.«157453_j2911987827332_1_alg».proof.Proof.Gen.ReferenceIdeal.Read
import proofs.«157453_j2911987827332_1_alg».proof.Proof.Spec
import proofs.«157453_j2911987827332_1_alg».proof.Proof.LibLogistic

noncomputable section

open scoped BigOperators

namespace Cert.ReferenceIdeal.RefValue

open Cert.ReferenceIdeal Cert.ReferenceIdeal.Gen Cert.ReferenceIdeal.Read Cert.PairSpec
open Idealize.ShloMosaic Idealize.ShloMosaic.ValueIdx Idealize.ShloMosaic.TcCoe Idealize.SL.Sem

variable (x0 : (⟨S4x512x128, .f32⟩ : BufTy).Contents (Elt Ideal)) (x1 : (⟨S128x256, .f32⟩ : BufTy).Contents (Elt Ideal))
  (x2 : (⟨S128, .f32⟩ : BufTy).Contents (Elt Ideal)) (x3 : (⟨S3x128, .f32⟩ : BufTy).Contents (Elt Ideal))
  (x4 : (⟨S3, .f32⟩ : BufTy).Contents (Elt Ideal))

/-- The first contraction is every node's source projection. -/
theorem src_eq (b : Fin 4) (n : Fin 512) (h : Fin 128) :
    val_main_v1 (F := Ideal) x0 x1 (ix3 b n h) = srcRow (row x0 b n) x1 h := by
  rw [val_main_v1_apply]
  unfold srcRow row
  refine Finset.sum_congr rfl fun k _ => ?_
  rw [val_main_v0_apply]
  have e1 : lidx_main_v1 (ix3 b n h) k = ix3 b n k := funext fun a => Fin.ext (by
    match a with
    | ⟨0, _⟩ => rfl
    | ⟨1, _⟩ => rfl
    | ⟨2, _⟩ => rfl)
  have e2 : idx_main_v0 (ridx_main_v1 (ix3 b n h) k) = ix2 h (lo k) := funext fun a => Fin.ext (by
    match a with
    | ⟨0, _⟩ => rfl
    | ⟨1, _⟩ => rfl)
  rw [e1, e2]

/-- The second contraction is every node's destination projection. -/
theorem dst_eq (b : Fin 4) (n : Fin 512) (h : Fin 128) :
    val_main_v3 (F := Ideal) x0 x1 (ix3 b n h) = dstRow (row x0 b n) x1 h := by
  rw [val_main_v3_apply]
  unfold dstRow row
  refine Finset.sum_congr rfl fun k _ => ?_
  rw [val_main_v2_apply]
  have e1 : lidx_main_v3 (ix3 b n h) k = ix3 b n k := funext fun a => Fin.ext (by
    match a with
    | ⟨0, _⟩ => rfl
    | ⟨1, _⟩ => rfl
    | ⟨2, _⟩ => rfl)
  have e2 : idx_main_v2 (ridx_main_v3 (ix3 b n h) k) = ix2 h (hi k) := funext fun a => Fin.ext (by
    match a with
    | ⟨0, _⟩ => rfl
    | ⟨1, _⟩ => rfl)
  rw [e1, e2]

/-- The pre-activation of pair (i, j): source(i) + destination(j) + bias. -/
theorem pre_eq (b : Fin 4) (i j : Fin 512) (h : Fin 128) :
    val_main_v11 (F := Ideal) x0 x1 x2 (ix4 b i j h) = srcRow (row x0 b i) x1 h + dstRow (row x0 b j) x1 h + x2 (ix1 h) := by
  rw [val_main_v11_apply, val_main_v8_apply, val_main_v6_apply, val_main_v4_apply, val_main_v7_apply, val_main_v5_apply,
    val_main_v10_apply, val_main_v9_apply]
  have e1 : idx_main_v4 (idx_main_v6 (ix4 b i j h)) = ix3 b i h := funext fun a => Fin.ext (by
    match a with
    | ⟨0, _⟩ => rfl
    | ⟨1, _⟩ => rfl
    | ⟨2, _⟩ => rfl)
  have e2 : idx_main_v5 (idx_main_v7 (ix4 b i j h)) = ix3 b j h := funext fun a => Fin.ext (by
    match a with
    | ⟨0, _⟩ => rfl
    | ⟨1, _⟩ => rfl
    | ⟨2, _⟩ => rfl)
  have e3 : idx_main_v9 (idx_main_v10 (ix4 b i j h)) = ix1 h := funext fun a => Fin.ext (by
    match a with
    | ⟨0, _⟩ => rfl)
  rw [e1, e2, e3, src_eq, dst_eq]
  rfl

/-- The outlined activation: x · (1 / (1 + e^(−x))) is x · σ(x). -/
theorem act_eq (b : Fin 4) (i j : Fin 512) (h : Fin 128) :
    val_main_v12 (F := Ideal) x0 x1 x2 (ix4 b i j h) = silu (srcRow (row x0 b i) x1 h + dstRow (row x0 b j) x1 h + x2 (ix1 h)) := by
  rw [val_main_v12_apply, val_main_call0_v5_apply, val_main_call0_v4_apply, val_main_call0_cst_0_apply, val_main_call0_v3_apply,
    val_main_call0_v2_apply, val_main_call0_cst_apply, val_main_call0_v1_apply, val_main_call0_v0_apply, pre_eq]
  exact congrArg (_ * ·) (Cert.Logistic.logistic_spelt _)

/-- The un-symmetrized scores of pair (i, j). -/
theorem logits_eq (b : Fin 4) (i j : Fin 512) (c : Fin 3) :
    val_main_v16 (F := Ideal) x0 x1 x2 x3 x4 (ix4 b i j c)
      = head (fun h => srcRow (row x0 b i) x1 h + dstRow (row x0 b j) x1 h + x2 (ix1 h)) x3 x4 c := by
  rw [val_main_v16_apply, val_main_v13_apply, val_main_v15_apply, val_main_v14_apply]
  unfold head
  have e3 : idx_main_v14 (idx_main_v15 (ix4 b i j c)) = ix1 c := funext fun a => Fin.ext (by
    match a with
    | ⟨0, _⟩ => rfl)
  rw [e3]
  refine congrArg (· + x4 (ix1 c)) (Finset.sum_congr rfl fun k _ => ?_)
  have e1 : lidx_main_v13 (ix4 b i j c) k = ix4 b i j k := funext fun a => Fin.ext (by
    match a with
    | ⟨0, _⟩ => rfl
    | ⟨1, _⟩ => rfl
    | ⟨2, _⟩ => rfl
    | ⟨3, _⟩ => rfl)
  have e2 : ridx_main_v13 (ix4 b i j c) k = ix2 c k := funext fun a => Fin.ext (by
    match a with
    | ⟨0, _⟩ => rfl
    | ⟨1, _⟩ => rfl)
  rw [e1, e2, act_eq]

/-- The reference's result is the head, entry by entry. -/
theorem result_eq : val_main_v20 (F := Ideal) x0 x1 x2 x3 x4 = G x0 x1 x2 x3 x4 := by
  funext y
  obtain ⟨b, i, j, c, rfl⟩ : ∃ (b : Fin 4) (i j : Fin 512) (c : Fin 3), y = ix4 b i j c := ⟨y 0, y 1, y 2, y 3, eq_ix4 y⟩
  rw [val_main_v20_apply, val_main_v18_apply, val_main_v17_apply, val_main_v19_apply, val_main_cst_apply]
  have e : idx_main_v17 (ix4 b i j c) = ix4 b j i c := funext fun a => Fin.ext (by
    match a with
    | ⟨0, _⟩ => rfl
    | ⟨1, _⟩ => rfl
    | ⟨2, _⟩ => rfl
    | ⟨3, _⟩ => rfl)
  rw [e, logits_eq, logits_eq, G_ix4]
  unfold scoreAt pairScore
  have hc : (fun h => srcRow (row x0 b j) x1 h + dstRow (row x0 b i) x1 h + x2 (ix1 h))
      = (fun h => dstRow (row x0 b i) x1 h + srcRow (row x0 b j) x1 h + x2 (ix1 h)) :=
    funext fun h => by rw [add_comm (srcRow (row x0 b j) x1 h)]
  rw [hc]
  rfl

end Cert.ReferenceIdeal.RefValue

end
-- ==== Proof.lean ====
/-
  The pair-scoring kernel against its reference, on the extended reals.

  For node features x of four batch elements of 512 nodes, both programs compute, for every ordered pair (i, j) of a
  batch element's nodes, three scores: the features of i projected by the first half of the first layer's weights plus
  those of j projected by the second half plus a bias go through x ↦ x · σ(x) and a second layer; the result is the
  mean of the scores of (i, j) and (j, i). The reference builds the whole score array and averages it with its
  transpose. The kernel works tile by tile, 128 rows of i against 64 rows of j, and computes the scores of (j, i) on the
  spot, adding the two projections in the other order; since addition of extended reals is commutative both are the
  same function of the arguments (`Cert.PairSpec.G`). The kernel spells σ as the logistic function, the reference as
  1 / (1 + e^(−x)), which is its definition.

  The kernel reads the node features through two windows of one array; its frame splits that array's ownership in two
  halves, one per window. The rewriting pass changed no operation, so the idealized kernel is the kernel's own text.
-/
import proofs.«157453_j2911987827332_1_alg».proof.Defs
import proofs.«157453_j2911987827332_1_alg».proof.Proof.Gen.Kernel
import proofs.«157453_j2911987827332_1_alg».proof.Proof.Gen.KernelIdeal
import proofs.«157453_j2911987827332_1_alg».proof.Proof.Gen.ReferenceIdeal
import proofs.«157453_j2911987827332_1_alg».proof.Proof.Gen.Pre_finite_inputs
import proofs.«157453_j2911987827332_1_alg».proof.Proof.RunBits
import proofs.«157453_j2911987827332_1_alg».proof.Proof.KValue
import proofs.«157453_j2911987827332_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- The reference's run, its result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the head of the arguments in their result array. -/
theorem algebraic : Cert.algebraic_KernelIdeal_ReferenceIdeal := by
  intro m ρ m' ρ' _ hagree
  refine ⟨fun c => Cert.PairSpec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.ReferenceIdeal.RefValue.result_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
